-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x2 : Shape := ⟨2, ![4000000, 2]⟩
abbrev S4000000x5x5 : Shape := ⟨3, ![4000000, 5, 5]⟩
abbrev S4000000x5 : Shape := ⟨2, ![4000000, 5]⟩
abbrev S_ : Shape := ⟨0, ![]⟩

class Facts : Prop where
  bcast_S_S4000000x5x5 : S_.BroadcastsInDim S4000000x5x5 (![] : Fin 0 → Fin S4000000x5x5.rank)
  reducesTo_S4000000x5x5_S_d0_1_2 : S4000000x5x5.ReducesTo [0, 1, 2] S_
  h_S_ : 0 < S_.numel
  bcast_S_S4000000x5 : S_.BroadcastsInDim S4000000x5 (![] : Fin 0 → Fin S4000000x5.rank)
  reducesTo_S4000000x5_S_d0_1 : S4000000x5.ReducesTo [0, 1] S_

variable [Facts]

def fn {F : FTy → Type} [FloatOps F] (main_arg0 : IVec S4000000x2 32) (main_arg1 : FVec F S4000000x5x5 .f32) (main_arg2 : FVec F S4000000x5 .f32) : IVec S_ 1 :=
  let main_v0 : FVec F S4000000x5x5 .f32 := Host.absf main_arg1
  let main_cst : FVec F S_ .f32 := constant S_ .f32 0x7F800000#32
  let main_v1 : FVec F S4000000x5x5 .f32 := broadcastInDim S4000000x5x5 ![] bcast_S_S4000000x5x5 main_cst
  let main_v2 : IVec S4000000x5x5 1 := cmpf .olt main_v0 main_v1
  let main_c : IVec S_ 1 := constantI S_ 1 1#1
  let main_v3 : IVec S_ 1 := (fun x v => Host.reduce IntOp.andi x v reducesTo_S4000000x5x5_S_d0_1_2 h_S_) main_v2 main_c
  let main_v4 : FVec F S4000000x5 .f32 := Host.absf main_arg2
  let main_cst_0 : FVec F S_ .f32 := constant S_ .f32 0x7F800000#32
  let main_v5 : FVec F S4000000x5 .f32 := broadcastInDim S4000000x5 ![] bcast_S_S4000000x5 main_cst_0
  let main_v6 : IVec S4000000x5 1 := cmpf .olt main_v4 main_v5
  let main_c_1 : IVec S_ 1 := constantI S_ 1 1#1
  let main_v7 : IVec S_ 1 := (fun x v => Host.reduce IntOp.andi x v reducesTo_S4000000x5_S_d0_1 h_S_) main_v6 main_c_1
  let main_v8 : IVec S_ 1 := andi main_v3 main_v7
  main_v8
-- ==== Kernel.lean ====
abbrev S4000000x2 : Shape := ⟨2, ![4000000, 2]⟩
abbrev S4000000x5x5 : Shape := ⟨3, ![4000000, 5, 5]⟩
abbrev S4000000x5 : Shape := ⟨2, ![4000000, 5]⟩
abbrev S2x4000000 : Shape := ⟨2, ![2, 4000000]⟩
abbrev S4000000x5x4 : Shape := ⟨3, ![4000000, 5, 4]⟩
abbrev S4000000x20 : Shape := ⟨2, ![4000000, 20]⟩
abbrev S20x4000000 : Shape := ⟨2, ![20, 4000000]⟩
abbrev S4000000x4 : Shape := ⟨2, ![4000000, 4]⟩
abbrev S4x4000000 : Shape := ⟨2, ![4, 4000000]⟩
abbrev S5x4000000 : Shape := ⟨2, ![5, 4000000]⟩
abbrev S2x32000 : Shape := ⟨2, ![2, 32000]⟩
abbrev S20x32000 : Shape := ⟨2, ![20, 32000]⟩
abbrev S4x32000 : Shape := ⟨2, ![4, 32000]⟩
abbrev S5x32000 : Shape := ⟨2, ![5, 32000]⟩
abbrev S1x32000 : Shape := ⟨2, ![1, 32000]⟩
abbrev S32000 : Shape := ⟨1, ![32000]⟩

abbrev nBuf : Space → Nat
  | .hbm => 11
  | .vmem => 8
  | .smem => 0
  | _ => 0

abbrev bufTy : (tb : Table) → Fin (tcTables nBuf tb) → BufTy
  | .hbm, ⟨0, _⟩ => ⟨S4000000x2, .i32⟩
  | .hbm, ⟨1, _⟩ => ⟨S4000000x5x5, .f32⟩
  | .hbm, ⟨2, _⟩ => ⟨S4000000x5, .f32⟩
  | .hbm, ⟨3, _⟩ => ⟨S2x4000000, .i32⟩
  | .hbm, ⟨4, _⟩ => ⟨S4000000x5x4, .f32⟩
  | .hbm, ⟨5, _⟩ => ⟨S4000000x20, .f32⟩
  | .hbm, ⟨6, _⟩ => ⟨S20x4000000, .f32⟩
  | .hbm, ⟨7, _⟩ => ⟨S4000000x4, .f32⟩
  | .hbm, ⟨8, _⟩ => ⟨S4x4000000, .f32⟩
  | .hbm, ⟨9, _⟩ => ⟨S5x4000000, .f32⟩
  | .hbm, ⟨10, _⟩ => ⟨S4000000x5, .f32⟩
  | .local _ .vmem, ⟨0, _⟩ => ⟨S2x32000, .i32⟩
  | .local _ .vmem, ⟨1, _⟩ => ⟨S2x32000, .i32⟩
  | .local _ .vmem, ⟨2, _⟩ => ⟨S20x32000, .f32⟩
  | .local _ .vmem, ⟨3, _⟩ => ⟨S20x32000, .f32⟩
  | .local _ .vmem, ⟨4, _⟩ => ⟨S4x32000, .f32⟩
  | .local _ .vmem, ⟨5, _⟩ => ⟨S4x32000, .f32⟩
  | .local _ .vmem, ⟨6, _⟩ => ⟨S5x32000, .f32⟩
  | .local _ .vmem, ⟨7, _⟩ => ⟨S5x32000, .f32⟩
  | _, _ => ⟨S4000000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x32000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x32000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4000000x2_S2x4000000_1_0 : S4000000x2.Transposes [1, 0] S2x4000000
  slices_S4000000x5x5_S4000000x5x4_0_0_1 : S4000000x5x5.Slices ![0, 0, 1] S4000000x5x4
  shapeCasts_S4000000x5x4_S4000000x20 : S4000000x5x4.ShapeCasts S4000000x20
  transposes_S4000000x20_S20x4000000_1_0 : S4000000x20.Transposes [1, 0] S20x4000000
  slices_S4000000x5_S4000000x4_0_1 : S4000000x5.Slices ![0, 1] S4000000x4
  transposes_S4000000x4_S4x4000000_1_0 : S4000000x4.Transposes [1, 0] S4x4000000
  inb_S2x32000_S1x32000_0_0 : ∀ a, (![0, 0] : Fin 2 → Nat) a + S1x32000.size a ≤ S2x32000.size a
  h_S1x32000 : 0 < S1x32000.numel
  shapeCasts_S1x32000_S32000 : S1x32000.ShapeCasts S32000
  inb_S2x32000_S1x32000_1_0 : ∀ a, (![1, 0] : Fin 2 → Nat) a + S1x32000.size a ≤ S2x32000.size a
  inb_S4x32000_S1x32000_0_0 : ∀ a, (![0, 0] : Fin 2 → Nat) a + S1x32000.size a ≤ S4x32000.size a
  inb_S4x32000_S1x32000_1_0 : ∀ a, (![1, 0] : Fin 2 → Nat) a + S1x32000.size a ≤ S4x32000.size a
  inb_S4x32000_S1x32000_2_0 : ∀ a, (![2, 0] : Fin 2 → Nat) a + S1x32000.size a ≤ S4x32000.size a
  inb_S4x32000_S1x32000_3_0 : ∀ a, (![3, 0] : Fin 2 → Nat) a + S1x32000.size a ≤ S4x32000.size a
  inb_S20x32000_S1x32000_0_0 : ∀ a, (![0, 0] : Fin 2 → Nat) a + S1x32000.size a ≤ S20x32000.size a
  inb_S20x32000_S1x32000_1_0 : ∀ a, (![1, 0] : Fin 2 → Nat) a + S1x32000.size a ≤ S20x32000.size a
  inb_S20x32000_S1x32000_2_0 : ∀ a, (![2, 0] : Fin 2 → Nat) a + S1x32000.size a ≤ S20x32000.size a
  inb_S20x32000_S1x32000_3_0 : ∀ a, (![3, 0] : Fin 2 → Nat) a + S1x32000.size a ≤ S20x32000.size a
  inb_S5x32000_S1x32000_0_0 : ∀ a, (![0, 0] : Fin 2 → Nat) a + S1x32000.size a ≤ S5x32000.size a
  shapeCasts_S32000_S1x32000 : S32000.ShapeCasts S1x32000
  inb_S20x32000_S1x32000_4_0 : ∀ a, (![4, 0] : Fin 2 → Nat) a + S1x32000.size a ≤ S20x32000.size a
  inb_S20x32000_S1x32000_5_0 : ∀ a, (![5, 0] : Fin 2 → Nat) a + S1x32000.size a ≤ S20x32000.size a
  inb_S20x32000_S1x32000_6_0 : ∀ a, (![6, 0] : Fin 2 → Nat) a + S1x32000.size a ≤ S20x32000.size a
  inb_S20x32000_S1x32000_7_0 : ∀ a, (![7, 0] : Fin 2 → Nat) a + S1x32000.size a ≤ S20x32000.size a
  inb_S5x32000_S1x32000_1_0 : ∀ a, (![1, 0] : Fin 2 → Nat) a + S1x32000.size a ≤ S5x32000.size a
  inb_S20x32000_S1x32000_8_0 : ∀ a, (![8, 0] : Fin 2 → Nat) a + S1x32000.size a ≤ S20x32000.size a
  inb_S20x32000_S1x32000_9_0 : ∀ a, (![9, 0] : Fin 2 → Nat) a + S1x32000.size a ≤ S20x32000.size a
  inb_S20x32000_S1x32000_10_0 : ∀ a, (![10, 0] : Fin 2 → Nat) a + S1x32000.size a ≤ S20x32000.size a
  inb_S20x32000_S1x32000_11_0 : ∀ a, (![11, 0] : Fin 2 → Nat) a + S1x32000.size a ≤ S20x32000.size a
  inb_S5x32000_S1x32000_2_0 : ∀ a, (![2, 0] : Fin 2 → Nat) a + S1x32000.size a ≤ S5x32000.size a
  inb_S20x32000_S1x32000_12_0 : ∀ a, (![12, 0] : Fin 2 → Nat) a + S1x32000.size a ≤ S20x32000.size a
  inb_S20x32000_S1x32000_13_0 : ∀ a, (![13, 0] : Fin 2 → Nat) a + S1x32000.size a ≤ S20x32000.size a
  inb_S20x32000_S1x32000_14_0 : ∀ a, (![14, 0] : Fin 2 → Nat) a + S1x32000.size a ≤ S20x32000.size a
  inb_S20x32000_S1x32000_15_0 : ∀ a, (![15, 0] : Fin 2 → Nat) a + S1x32000.size a ≤ S20x32000.size a
  inb_S5x32000_S1x32000_3_0 : ∀ a, (![3, 0] : Fin 2 → Nat) a + S1x32000.size a ≤ S5x32000.size a
  inb_S20x32000_S1x32000_16_0 : ∀ a, (![16, 0] : Fin 2 → Nat) a + S1x32000.size a ≤ S20x32000.size a
  inb_S20x32000_S1x32000_17_0 : ∀ a, (![17, 0] : Fin 2 → Nat) a + S1x32000.size a ≤ S20x32000.size a
  inb_S20x32000_S1x32000_18_0 : ∀ a, (![18, 0] : Fin 2 → Nat) a + S1x32000.size a ≤ S20x32000.size a
  inb_S20x32000_S1x32000_19_0 : ∀ a, (![19, 0] : Fin 2 → Nat) a + S1x32000.size a ≤ S20x32000.size a
  inb_S5x32000_S1x32000_4_0 : ∀ a, (![4, 0] : Fin 2 → Nat) a + S1x32000.size a ≤ S5x32000.size a
  transposes_S5x4000000_S4000000x5_1_0 : S5x4000000.Transposes [1, 0] S4000000x5
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32000.size a ≤ S2x4000000.size a
  hwx0_0 : ∀ i : grid0.Coords, EltTy.bits .i32 = 32 ∨ (Rect.block (s := S2x4000000) S2x32000.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20x32000.size a ≤ S20x4000000.size a
  hwx0_1 : ∀ i : grid0.Coords, EltTy.bits .f32 = 32 ∨ (Rect.block (s := S20x4000000) S20x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x32000.size a ≤ S4x4000000.size a
  hwx0_2 : ∀ i : grid0.Coords, EltTy.bits .f32 = 32 ∨ (Rect.block (s := S4x4000000) S4x32000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5x32000.size a ≤ S5x4000000.size a
  hwx0_3 : ∀ i : grid0.Coords, EltTy.bits .f32 = 32 ∨ (Rect.block (s := S5x4000000) S5x32000.size (cc0_transform_3 i) (hinb0_3 i)).WholeWords (EltTy.packing .f32)

variable [Facts₀]

abbrev win0_0 : Pipeline.Window sig grid0 :=
  Pipeline.Window.ofSpec (Memref.whole main_v0) S2x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S20x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x32000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5x32000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4000000x2 : Shape := ⟨2, ![4000000, 2]⟩
abbrev S4000000x5x5 : Shape := ⟨3, ![4000000, 5, 5]⟩
abbrev S4000000x5 : Shape := ⟨2, ![4000000, 5]⟩
abbrev S4000000x5x1 : Shape := ⟨3, ![4000000, 5, 1]⟩
abbrev S_ : Shape := ⟨0, ![]⟩
abbrev S4000000x1 : Shape := ⟨2, ![4000000, 1]⟩
abbrev S4000000x5x4 : Shape := ⟨3, ![4000000, 5, 4]⟩
abbrev S4000000x1x1 : Shape := ⟨3, ![4000000, 1, 1]⟩
abbrev S4000000x1x4 : Shape := ⟨3, ![4000000, 1, 4]⟩
abbrev S4000000x4 : Shape := ⟨2, ![4000000, 4]⟩
abbrev S4000000 : Shape := ⟨1, ![4000000]⟩
abbrev S4000000x5x2 : Shape := ⟨3, ![4000000, 5, 2]⟩
abbrev S4000000x1x2 : Shape := ⟨3, ![4000000, 1, 2]⟩

abbrev nBuf : Space → Nat
  | .hbm => 167
  | .vmem => 0
  | .smem => 0
  | _ => 0

abbrev hbmTy0_0 (i : Nat) : BufTy := match i % 128 with
  | 0 => ⟨S4000000x2, .i32⟩
  | 1 => ⟨S4000000x5x5, .f32⟩
  | 2 => ⟨S4000000x5, .f32⟩
  | 3 => ⟨S4000000x5x1, .f32⟩
  | 4 => ⟨S4000000x5, .f32⟩
  | 5 => ⟨S4000000x5x1, .f32⟩
  | 6 => ⟨S4000000x5, .f32⟩
  | 7 => ⟨S4000000x5x1, .f32⟩
  | 8 => ⟨S4000000x5, .f32⟩
  | 9 => ⟨S4000000x5x1, .f32⟩
  | 10 => ⟨S4000000x5, .f32⟩
  | 11 => ⟨S_, .f32⟩
  | 12 => ⟨S4000000x5, .f32⟩
  | 13 => ⟨S4000000x5, .f32⟩
  | 14 => ⟨S_, .f32⟩
  | 15 => ⟨S4000000x5, .f32⟩
  | 16 => ⟨S4000000x5, .f32⟩
  | 17 => ⟨S4000000x1, .i32⟩
  | 18 => ⟨S4000000x1, .f32⟩
  | 19 => ⟨S_, .f32⟩
  | 20 => ⟨S4000000x1, .f32⟩
  | 21 => ⟨S4000000x1, .f32⟩
  | 22 => ⟨S_, .f32⟩
  | 23 => ⟨S4000000x1, .f32⟩
  | 24 => ⟨S4000000x1, .f32⟩
  | 25 => ⟨S4000000x1, .i32⟩
  | 26 => ⟨S4000000x1, .f32⟩
  | 27 => ⟨S_, .f32⟩
  | 28 => ⟨S4000000x1, .f32⟩
  | 29 => ⟨S4000000x1, .f32⟩
  | 30 => ⟨S_, .f32⟩
  | 31 => ⟨S4000000x1, .f32⟩
  | 32 => ⟨S4000000x1, .f32⟩
  | 33 => ⟨S_, .f32⟩
  | 34 => ⟨S4000000x5, .f32⟩
  | 35 => ⟨S4000000x5, .f32⟩
  | 36 => ⟨S4000000x5, .f32⟩
  | 37 => ⟨S4000000x5, .f32⟩
  | 38 => ⟨S_, .f32⟩
  | 39 => ⟨S4000000x5, .f32⟩
  | 40 => ⟨S4000000x5, .f32⟩
  | 41 => ⟨S4000000x5, .f32⟩
  | 42 => ⟨S4000000x5, .f32⟩
  | 43 => ⟨S_, .f32⟩
  | 44 => ⟨S4000000x5, .f32⟩
  | 45 => ⟨S4000000x5, .f32⟩
  | 46 => ⟨S4000000x5, .f32⟩
  | 47 => ⟨S_, .f32⟩
  | 48 => ⟨S4000000x5, .f32⟩
  | 49 => ⟨S4000000x5, .f32⟩
  | 50 => ⟨S4000000x5, .f32⟩
  | 51 => ⟨S_, .f32⟩
  | 52 => ⟨S4000000x5, .f32⟩
  | 53 => ⟨S4000000x5, .f32⟩
  | 54 => ⟨S4000000x5, .f32⟩
  | 55 => ⟨S_, .f32⟩
  | 56 => ⟨S4000000x5, .f32⟩
  | 57 => ⟨S4000000x5, .f32⟩
  | 58 => ⟨S4000000x5, .f32⟩
  | 59 => ⟨S4000000x5x1, .f32⟩
  | 60 => ⟨S4000000x5x1, .f32⟩
  | 61 => ⟨S4000000x5x1, .f32⟩
  | 62 => ⟨S4000000x5x1, .f32⟩
  | 63 => ⟨S4000000x5x4, .f32⟩
  | 64 => ⟨S4000000x1, .f32⟩
  | 65 => ⟨S4000000x1, .f32⟩
  | 66 => ⟨S4000000x1, .f32⟩
  | 67 => ⟨S4000000x1, .f32⟩
  | 68 => ⟨S_, .f32⟩
  | 69 => ⟨S4000000x1, .f32⟩
  | 70 => ⟨S4000000x1, .f32⟩
  | 71 => ⟨S_, .f32⟩
  | 72 => ⟨S4000000x1, .f32⟩
  | 73 => ⟨S4000000x1, .f32⟩
  | 74 => ⟨S4000000x1, .i32⟩
  | 75 => ⟨S4000000x1, .f32⟩
  | 76 => ⟨S_, .f32⟩
  | 77 => ⟨S4000000x1, .f32⟩
  | 78 => ⟨S4000000x1, .f32⟩
  | 79 => ⟨S_, .f32⟩
  | 80 => ⟨S4000000x1, .f32⟩
  | 81 => ⟨S4000000x1, .f32⟩
  | 82 => ⟨S4000000x1, .i32⟩
  | 83 => ⟨S4000000x1, .f32⟩
  | 84 => ⟨S_, .f32⟩
  | 85 => ⟨S4000000x1, .f32⟩
  | 86 => ⟨S4000000x1, .f32⟩
  | 87 => ⟨S_, .f32⟩
  | 88 => ⟨S4000000x1, .f32⟩
  | 89 => ⟨S4000000x1, .f32⟩
  | 90 => ⟨S_, .f32⟩
  | 91 => ⟨S4000000x1, .f32⟩
  | 92 => ⟨S4000000x1, .f32⟩
  | 93 => ⟨S4000000x1, .f32⟩
  | 94 => ⟨S_, .f32⟩
  | 95 => ⟨S4000000x1, .f32⟩
  | 96 => ⟨S4000000x1, .f32⟩
  | 97 => ⟨S4000000x1, .f32⟩
  | 98 => ⟨S_, .f32⟩
  | 99 => ⟨S4000000x1, .f32⟩
  | 100 => ⟨S4000000x1, .f32⟩
  | 101 => ⟨S4000000x1, .f32⟩
  | 102 => ⟨S_, .f32⟩
  | 103 => ⟨S4000000x1, .f32⟩
  | 104 => ⟨S4000000x1, .f32⟩
  | 105 => ⟨S4000000x1, .f32⟩
  | 106 => ⟨S_, .f32⟩
  | 107 => ⟨S4000000x1, .f32⟩
  | 108 => ⟨S4000000x1, .f32⟩
  | 109 => ⟨S4000000x1, .f32⟩
  | 110 => ⟨S_, .f32⟩
  | 111 => ⟨S4000000x1, .f32⟩
  | 112 => ⟨S4000000x1, .f32⟩
  | 113 => ⟨S4000000x1, .f32⟩
  | 114 => ⟨S4000000x1x1, .f32⟩
  | 115 => ⟨S4000000x1x1, .f32⟩
  | 116 => ⟨S4000000x1x1, .f32⟩
  | 117 => ⟨S4000000x1x1, .f32⟩
  | 118 => ⟨S4000000x1x4, .f32⟩
  | 119 => ⟨S4000000x4, .f32⟩
  | 120 => ⟨S4000000x5x1, .f32⟩
  | 121 => ⟨S4000000x5, .f32⟩
  | 122 => ⟨S4000000x5x1, .f32⟩
  | 123 => ⟨S4000000x5, .f32⟩
  | 124 => ⟨S4000000x5, .f32⟩
  | 125 => ⟨S4000000x5x1, .f32⟩
  | 126 => ⟨S4000000x5, .f32⟩
  | 127 => ⟨S4000000x5x1, .f32⟩
  | _ => ⟨S4000000x2, .i32⟩

abbrev hbmTy0_1 (i : Nat) : BufTy := match i % 128 with
  | 0 => ⟨S4000000x5, .f32⟩
  | 1 => ⟨S4000000x5, .f32⟩
  | 2 => ⟨S4000000x5, .f32⟩
  | 3 => ⟨S4000000x1, .f32⟩
  | 4 => ⟨S4000000, .f32⟩
  | 5 => ⟨S4000000x1, .f32⟩
  | 6 => ⟨S4000000, .f32⟩
  | 7 => ⟨S4000000, .f32⟩
  | 8 => ⟨S4000000x1, .f32⟩
  | 9 => ⟨S4000000, .f32⟩
  | 10 => ⟨S4000000x1, .f32⟩
  | 11 => ⟨S4000000, .f32⟩
  | 12 => ⟨S4000000, .f32⟩
  | 13 => ⟨S4000000, .f32⟩
  | 14 => ⟨S4000000x5x2, .f32⟩
  | 15 => ⟨S4000000x2, .f32⟩
  | 16 => ⟨S4000000x1x2, .f32⟩
  | 17 => ⟨S4000000x5x2, .f32⟩
  | 18 => ⟨S4000000x5x2, .f32⟩
  | 19 => ⟨S4000000x5x2, .f32⟩
  | 20 => ⟨S4000000x2, .f32⟩
  | 21 => ⟨S4000000x1x2, .f32⟩
  | 22 => ⟨S4000000x5x2, .f32⟩
  | 23 => ⟨S4000000x5x2, .f32⟩
  | 24 => ⟨S4000000x5x2, .f32⟩
  | 25 => ⟨S_, .f32⟩
  | 26 => ⟨S_, .f32⟩
  | 27 => ⟨S4000000x5x2, .f32⟩
  | 28 => ⟨S4000000x5x2, .f32⟩
  | 29 => ⟨S4000000x5x1, .f32⟩
  | 30 => ⟨S4000000x5, .f32⟩
  | 31 => ⟨S4000000x5x1, .f32⟩
  | 32 => ⟨S4000000x5, .f32⟩
  | 33 => ⟨S4000000x5, .f32⟩
  | 34 => ⟨S4000000x1, .f32⟩
  | 35 => ⟨S4000000x5, .f32⟩
  | 36 => ⟨S4000000x5, .f32⟩
  | 37 => ⟨S4000000x5, .f32⟩
  | 38 => ⟨S4000000x5, .f32⟩
  | _ => ⟨S4000000x2, .i32⟩

abbrev hbmTy (i : Nat) : BufTy := match i / 128 with
  | 0 => hbmTy0_0 i
  | 1 => hbmTy0_1 i
  | _ => ⟨S4000000x2, .i32⟩

abbrev bufTy : (tb : Table) → Fin (tcTables nBuf tb) → BufTy
  | .hbm, ⟨i, _⟩ => hbmTy i
  | _, _ => ⟨S4000000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_cst_12 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_cst_16 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_18 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_19 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_20 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_21 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_22 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_23 : Ref sig .tc := ⟨.hbm, 153, rfl⟩
abbrev main_call0_v0 : Ref sig .tc := ⟨.hbm, 154, rfl⟩
abbrev main_call0_v1 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩

abbrev nD : Nat := 1
abbrev τ : Topo := Topo.v7x

variable {F : FTy → Type} [FloatOps F]

class Facts₀ : Prop where
  slices_S4000000x5x5_S4000000x5x1_0_0_1 : S4000000x5x5.Slices ![0, 0, 1] S4000000x5x1
  shapeCasts_S4000000x5x1_S4000000x5 : S4000000x5x1.ShapeCasts S4000000x5
  slices_S4000000x5x5_S4000000x5x1_0_0_2 : S4000000x5x5.Slices ![0, 0, 2] S4000000x5x1
  slices_S4000000x5x5_S4000000x5x1_0_0_3 : S4000000x5x5.Slices ![0, 0, 3] S4000000x5x1
  slices_S4000000x5x5_S4000000x5x1_0_0_4 : S4000000x5x5.Slices ![0, 0, 4] S4000000x5x1
  bcast_S_S4000000x5 : S_.BroadcastsInDim S4000000x5 (![] : Fin 0 → Fin S4000000x5.rank)
  slices_S4000000x2_S4000000x1_0_0 : S4000000x2.Slices ![0, 0] S4000000x1
  bcast_S_S4000000x1 : S_.BroadcastsInDim S4000000x1 (![] : Fin 0 → Fin S4000000x1.rank)
  slices_S4000000x2_S4000000x1_0_1 : S4000000x2.Slices ![0, 1] S4000000x1
  bcast_S4000000x1_S4000000x5_0_1 : S4000000x1.BroadcastsInDim S4000000x5 (![0, 1] : Fin 2 → Fin S4000000x5.rank)
  bcast_S4000000x5_S4000000x5x1_0_1 : S4000000x5.BroadcastsInDim S4000000x5x1 (![0, 1] : Fin 2 → Fin S4000000x5x1.rank)
  concatenates_S4000000x5x1_S4000000x5x1_S4000000x5x1_S4000000x5x1_S4000000x5x4_d2 : Shape.Concatenates [S4000000x5x1, S4000000x5x1, S4000000x5x1, S4000000x5x1] S4000000x5x4 2
  slices_S4000000x5_S4000000x1_0_1 : S4000000x5.Slices ![0, 1] S4000000x1
  slices_S4000000x5_S4000000x1_0_2 : S4000000x5.Slices ![0, 2] S4000000x1
  slices_S4000000x5_S4000000x1_0_3 : S4000000x5.Slices ![0, 3] S4000000x1
  slices_S4000000x5_S4000000x1_0_4 : S4000000x5.Slices ![0, 4] S4000000x1
  bcast_S4000000x1_S4000000x1x1_0_1 : S4000000x1.BroadcastsInDim S4000000x1x1 (![0, 1] : Fin 2 → Fin S4000000x1x1.rank)
  concatenates_S4000000x1x1_S4000000x1x1_S4000000x1x1_S4000000x1x1_S4000000x1x4_d2 : Shape.Concatenates [S4000000x1x1, S4000000x1x1, S4000000x1x1, S4000000x1x1] S4000000x1x4 2
  shapeCasts_S4000000x1x4_S4000000x4 : S4000000x1x4.ShapeCasts S4000000x4
  slices_S4000000x5x4_S4000000x5x1_0_0_2 : S4000000x5x4.Slices ![0, 0, 2] S4000000x5x1
  slices_S4000000x5x4_S4000000x5x1_0_0_0 : S4000000x5x4.Slices ![0, 0, 0] S4000000x5x1
  slices_S4000000x5x4_S4000000x5x1_0_0_3 : S4000000x5x4.Slices ![0, 0, 3] S4000000x5x1
  slices_S4000000x5x4_S4000000x5x1_0_0_1 : S4000000x5x4.Slices ![0, 0, 1] S4000000x5x1
  slices_S4000000x4_S4000000x1_0_2 : S4000000x4.Slices ![0, 2] S4000000x1
  shapeCasts_S4000000x1_S4000000 : S4000000x1.ShapeCasts S4000000
  slices_S4000000x4_S4000000x1_0_0 : S4000000x4.Slices ![0, 0] S4000000x1
  slices_S4000000x4_S4000000x1_0_3 : S4000000x4.Slices ![0, 3] S4000000x1
  slices_S4000000x4_S4000000x1_0_1 : S4000000x4.Slices ![0, 1] S4000000x1
  slices_S4000000x5x4_S4000000x5x2_0_0_0 : S4000000x5x4.Slices ![0, 0, 0] S4000000x5x2
  slices_S4000000x4_S4000000x2_0_0 : S4000000x4.Slices ![0, 0] S4000000x2
  bcast_S4000000x2_S4000000x1x2_0_2 : S4000000x2.BroadcastsInDim S4000000x1x2 (![0, 2] : Fin 2 → Fin S4000000x1x2.rank)
  bcast_S4000000x1x2_S4000000x5x2_0_1_2 : S4000000x1x2.BroadcastsInDim S4000000x5x2 (![0, 1, 2] : Fin 3 → Fin S4000000x5x2.rank)
  slices_S4000000x5x4_S4000000x5x2_0_0_2 : S4000000x5x4.Slices ![0, 0, 2] S4000000x5x2
  slices_S4000000x4_S4000000x2_0_2 : S4000000x4.Slices ![0, 2] S4000000x2
  bcast_S_S4000000x5x2 : S_.BroadcastsInDim S4000000x5x2 (![] : Fin 0 → Fin S4000000x5x2.rank)
  slices_S4000000x5x2_S4000000x5x1_0_0_0 : S4000000x5x2.Slices ![0, 0, 0] S4000000x5x1
  slices_S4000000x5x2_S4000000x5x1_0_0_1 : S4000000x5x2.Slices ![0, 0, 1] S4000000x5x1
  bcast_S4000000_S4000000x1_0 : S4000000.BroadcastsInDim S4000000x1 (![0] : Fin 1 → Fin S4000000x1.rank)

variable [Facts₀]

class Facts : Prop extends Facts₀ where

variable [Facts]
-- ==== Proof.Iou.lean ====
/-
  Intersection over union of two axis-aligned boxes, per box row and anchor, on the extended reals.

  A box is given by a grid cell (two integers), an offset (dx, dy) inside the cell and a size (h, w), all scaled
  by the cell pitch 20: its centre is (cell · 20 + 10) + offset · 20 and its corners are the centre minus / plus
  half the scaled size.  One program halves by multiplying with the word 0.5, the other by dividing by the word
  2.0; on every extended real these are one function (`div_two`), so both compute `entry` below.
-/
import Idealize.ShloMosaic.PureOps.Ideal
import Idealize.ShloMosaic.Lib.ValueIdx

noncomputable section

namespace Cert.Iou

open Idealize.ShloMosaic Idealize.ShloMosaic.ValueIdx

/-- The word 2.0 denotes the real 2. -/
theorem ofBits_two : Ideal.ofBits .f32 0x40000000#32 = ((2 : ℝ) : EReal) := by
  simp [Ideal.ofBits, Ideal.ieee, -EReal.coe_mul]; norm_num

/-- The word 0.5 denotes the real 1/2. -/
theorem ofBits_half : Ideal.ofBits .f32 0x3F000000#32 = ((1 / 2 : ℝ) : EReal) := by
  simp [Ideal.ofBits, Ideal.ieee, -EReal.coe_mul]; norm_num

/-- Dividing by the word 2.0 is multiplying by the word 0.5, on every extended real (the divisor is a nonzero
    real, so the quotient is the product with its inverse, infinities included). -/
theorem div_two (x : EReal) :
    Ideal.div x (Ideal.ofBits .f32 0x40000000#32) = x * Ideal.ofBits .f32 0x3F000000#32 := by
  rw [ofBits_two, ofBits_half, Ideal.div_coe (by norm_num : (2 : ℝ) ≠ 0)]

/-- The centre coordinate of grid cell `c`: `c · 20 + 10`. -/
def center (c : EReal) : EReal :=
  c * Ideal.ofBits .f32 0x41A00000#32 + Ideal.ofBits .f32 0x41200000#32

/-- The low corner on one axis: centre + offset · 20 − (size · 20) · 0.5. -/
def lo (ctr d s : EReal) : EReal :=
  (ctr + d * Ideal.ofBits .f32 0x41A00000#32) - (s * Ideal.ofBits .f32 0x41A00000#32) * Ideal.ofBits .f32 0x3F000000#32

/-- The high corner on one axis: centre + offset · 20 + (size · 20) · 0.5. -/
def hi (ctr d s : EReal) : EReal :=
  (ctr + d * Ideal.ofBits .f32 0x41A00000#32) + (s * Ideal.ofBits .f32 0x41A00000#32) * Ideal.ofBits .f32 0x3F000000#32

/-- The length two intervals share on one axis, clipped below at the word 0.0. -/
def overlap (lo1 lo2 hi1 hi2 : EReal) : EReal :=
  max (Ideal.ofBits .f32 0x00000000#32) (min hi1 hi2 - max lo1 lo2)

/-- Intersection area over union area of the box with corners (x1p, y1p), (x2p, y2p) and the box with corners
    (x1g, y1g), (x2g, y2g). -/
def ratio (x1p y1p x2p y2p x1g y1g x2g y2g : EReal) : EReal :=
  Ideal.div (overlap x1p x1g x2p x2g * overlap y1p y1g y2p y2g)
    (((x2p - x1p) * (y2p - y1p) + (x2g - x1g) * (y2g - y1g)) - overlap x1p x1g x2p x2g * overlap y1p y1g y2p y2g)

/-- One entry of the result: cell words `ci`, `cj`; the ground-truth box's offset and size `dxg dyg hg wg`; the
    predicted box's `dxp dyp hp wp`.  The x corners come from the j cell, the dy offset and the width; the y
    corners from the i cell, the dx offset and the height. -/
def entry (ci cj : BitVec 32) (dxg dyg hg wg dxp dyp hp wp : EReal) : EReal :=
  ratio (lo (center (FloatOps.sitofp (F := Ideal) .f32 cj)) dyp wp) (lo (center (FloatOps.sitofp (F := Ideal) .f32 ci)) dxp hp)
    (hi (center (FloatOps.sitofp (F := Ideal) .f32 cj)) dyp wp) (hi (center (FloatOps.sitofp (F := Ideal) .f32 ci)) dxp hp)
    (lo (center (FloatOps.sitofp (F := Ideal) .f32 cj)) dyg wg) (lo (center (FloatOps.sitofp (F := Ideal) .f32 ci)) dxg hg)
    (hi (center (FloatOps.sitofp (F := Ideal) .f32 cj)) dyg wg) (hi (center (FloatOps.sitofp (F := Ideal) .f32 ci)) dxg hg)

/-- The whole result array: entry (n, a) from row n of the cells and the ground truth (columns 1..4) and from
    anchor a of row n of the predictions (components 1..4). -/
def G (C : (⟨2, ![4000000, 2]⟩ : Shape).Idx → BitVec 32) (O : (⟨3, ![4000000, 5, 5]⟩ : Shape).Idx → EReal)
    (T : (⟨2, ![4000000, 5]⟩ : Shape).Idx → EReal) : (⟨2, ![4000000, 5]⟩ : Shape).Idx → EReal := fun i =>
  entry (C (ix2 (i 0) 0)) (C (ix2 (i 0) 1)) (T (ix2 (i 0) 1)) (T (ix2 (i 0) 2)) (T (ix2 (i 0) 3)) (T (ix2 (i 0) 4))
    (O (ix3 (i 0) (i 1) 1)) (O (ix3 (i 0) (i 1) 2)) (O (ix3 (i 0) (i 1) 3)) (O (ix3 (i 0) (i 1) 4))

end Cert.Iou

end
-- ==== Proof.KernelBlock.lean ====
/-
  What the kernel body leaves in its output block, entry by entry.

  The body fills the 5 x 32000 output block one row (one anchor) at a time.  Row a, lane q of the block is the
  intersection over union of the ground-truth box of lane q (cell rows 0, 1 of the first input block, rows 0..3 of
  the third) with the predicted box of anchor a at lane q (rows 4a .. 4a+3 of the second input block).
-/
import proofs.«143591_j31336081391713_2_alg».proof.Proof.Gen.KernelIdeal.Frame
import proofs.«143591_j31336081391713_2_alg».proof.Proof.Iou
import Idealize.ShloMosaic.Lib.Pipeline.Value
import Idealize.ShloMosaic.Lib.ValueIdx
import Idealize.ShloMosaic.Lib.ValueLayout

set_option maxRecDepth 16384

noncomputable section

namespace Cert.KernelIdeal.Block

open Idealize.ShloMosaic Idealize.ShloMosaic.ValueIdx Cert.KernelIdeal Cert.KernelIdeal.Gen

/-- A one-row rectangle at row `k` of an R x 32000 array places lane `q` of its row at `(k, q)`. -/
theorem row_idx {R : Nat} (k : Nat)
    (inb : ∀ a, (![k, 0] : Fin 2 → Nat) a + (![1, 32000] : Fin 2 → Nat) a ≤ (⟨2, ![R, 32000]⟩ : Shape).size a)
    (u : Fin 1) (q : Fin 32000) :
    (Rect.unit (s := ⟨2, ![R, 32000]⟩) ![k, 0] ![1, 32000] inb).idx (ix2 u q) = ix2 (⟨k, inb 0⟩ : Fin R) q := by
  funext d; apply Fin.ext
  match d with
  | ⟨0, _⟩ => show k + 1 * u.val = k; omega
  | ⟨1, _⟩ => show 0 + 1 * q.val = q.val; omega

/-- The same through the rectangle's embedding. -/
theorem row_emb {R : Nat} (k : Nat)
    (inb : ∀ a, (![k, 0] : Fin 2 → Nat) a + (![1, 32000] : Fin 2 → Nat) a ≤ (⟨2, ![R, 32000]⟩ : Shape).size a)
    (u : Fin 1) (q : Fin 32000) :
    (Rect.unit (s := ⟨2, ![R, 32000]⟩) ![k, 0] ![1, 32000] inb).emb (ix2 u q) = ix2 (⟨k, inb 0⟩ : Fin R) q :=
  row_idx k inb u q

/-- Entry (a, q) of the output block as a function of the three input blocks. -/
def blockEntry (x0 : Vec Ideal S2x32000 .i32) (x1 : Vec Ideal S20x32000 .f32) (x2 : Vec Ideal S4x32000 .f32)
    (a : Fin 5) (q : Fin 32000) : EReal :=
  Iou.entry (x0 (ix2 0 q)) (x0 (ix2 1 q)) (x2 (ix2 0 q)) (x2 (ix2 1 q)) (x2 (ix2 2 q)) (x2 (ix2 3 q))
    (x1 (ix2 ⟨4 * a.val + 0, by omega⟩ q)) (x1 (ix2 ⟨4 * a.val + 1, by omega⟩ q))
    (x1 (ix2 ⟨4 * a.val + 2, by omega⟩ q)) (x1 (ix2 ⟨4 * a.val + 3, by omega⟩ q))

/-- The same as a function of the block index. -/
def blockG (x0 : Vec Ideal S2x32000 .i32) (x1 : Vec Ideal S20x32000 .f32) (x2 : Vec Ideal S4x32000 .f32) :
    S5x32000.Idx → EReal := fun y => blockEntry x0 x1 x2 (y 0) (y 1)

theorem out_eq (x0 : Vec Ideal S2x32000 .i32) (x1 : Vec Ideal S20x32000 .f32) (x2 : Vec Ideal S4x32000 .f32) :
    out0_3 (F := Ideal) x0 x1 x2 = blockG x0 x1 x2 := by
  funext y
  unfold out0_3
  refine View.canon_apply_of_pieces (Val := Elt Ideal) (e := .f32) (blockG x0 x1 x2) _ ?_ y (cover0_3 _ _ _ _ _ y)
  intro p hp x
  simp only [List.mem_cons, List.mem_nil_iff, or_false] at hp
  rcases hp with rfl | rfl | rfl | rfl | rfl
  all_goals
    obtain ⟨u, q, rfl⟩ : ∃ (u : Fin 1) (q : Fin 32000), x = ix2 u q := ⟨x 0, x 1, eq_ix2 x⟩
    dsimp only
    rw [row_emb]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, shapeCast_a_1a_apply, shapeCast_1a_a_apply, mulf_apply, addf_apply, subf_apply, divf_apply,
      maximumf_apply, minimumf_apply, broadcast_apply, sitofp_apply, View.ld]
    repeat rw [row_idx]
    rfl

end Cert.KernelIdeal.Block

end
-- ==== Proof.KernelInputs.lean ====
/-
  The three arrays the kernel's region finds, entry by entry.

  Before the region the host transposes the cells, drops column 0 of the predictions and of the ground truth,
  flattens the predictions' (anchor, component) pair into one axis of 20, and transposes both, so that the box
  index becomes the last axis.
-/
import proofs.«143591_j31336081391713_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Inputs

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- Row r, column n of the transposed cells is cell word r of box n. -/
theorem cells_apply (r : Fin 2) (n : Fin 4000000) :
    (V m c main_v0 : S2x4000000.Idx → BitVec 32) (ix2 r n)
      = (m ((c : Thread nD τ).loc main_arg0) : S4000000x2.Idx → BitVec 32) (ix2 n r) := by
  have e : (V m c main_v0 : S2x4000000.Idx → BitVec 32)
      = transpose S2x4000000 [1, 0] (m ((c : Thread nD τ).loc main_arg0) : S4000000x2.Idx → BitVec 32) transposes_S4000000x2_S2x4000000_1_0 := by
    show StableHlo.after hostOps0 (fun b => m (c, b)) (Proc.devRef .tc main_v0) = _
    after_results
  rw [e, transpose_ix2_apply]

/-- Row k, column n of the transposed ground truth is component 1 + k of box n. -/
theorem truth_apply (k : Fin 4) (n : Fin 4000000) :
    (V m c main_v5 : S4x4000000.Idx → EReal) (ix2 k n)
      = (m ((c : Thread nD τ).loc main_arg2) : S4000000x5.Idx → EReal) (ix2 n ⟨1 + k.val, by omega⟩) := by
  have e : (V m c main_v5 : S4x4000000.Idx → EReal)
      = transpose S4x4000000 [1, 0] (extractStridedSlice S4000000x4 ![0, 1] (m ((c : Thread nD τ).loc main_arg2) : S4000000x5.Idx → EReal) slices_S4000000x5_S4000000x4_0_1) transposes_S4000000x4_S4x4000000_1_0 := by
    show StableHlo.after hostOps0 (fun b => m (c, b)) (Proc.devRef .tc main_v5) = _
    after_results
  rw [e, transpose_ix2_apply]
  exact extractStridedSlice_apply _ _ _ _ _ (fun a => match a with
    | ⟨0, _⟩ => by show n.val = 0 + n.val; omega
    | ⟨1, _⟩ => by show 1 + k.val = 1 + k.val; rfl)

/-- Row 4a + k, column n of the flattened, transposed predictions is component 1 + k of anchor a of box n. -/
theorem preds_apply (a : Fin 5) (k : Nat) (hk : k < 4) (h : 4 * a.val + k < 20) (n : Fin 4000000) :
    (V m c main_v3 : S20x4000000.Idx → EReal) (ix2 ⟨4 * a.val + k, h⟩ n)
      = (m ((c : Thread nD τ).loc main_arg1) : S4000000x5x5.Idx → EReal) (ix3 n a ⟨1 + k, by omega⟩) := by
  have e : (V m c main_v3 : S20x4000000.Idx → EReal)
      = transpose S20x4000000 [1, 0] (shapeCast S4000000x20 (extractStridedSlice S4000000x5x4 ![0, 0, 1] (m ((c : Thread nD τ).loc main_arg1) : S4000000x5x5.Idx → EReal) slices_S4000000x5x5_S4000000x5x4_0_0_1) shapeCasts_S4000000x5x4_S4000000x20) transposes_S4000000x20_S20x4000000_1_0 := by
    show StableHlo.after hostOps0 (fun b => m (c, b)) (Proc.devRef .tc main_v3) = _
    after_results; rfl
  rw [e, transpose_ix2_apply]
  rw [shapeCast_apply _ _ (ix2 n (⟨4 * a.val + k, h⟩ : Fin 20)) (ix3 n a (⟨k, hk⟩ : Fin 4)) (by
    rw [Shape.rowMajor_val_three, Shape.rowMajor_val_two]
    show (n.val * 5 + a.val) * 4 + k = n.val * 20 + (4 * a.val + k); omega)]
  exact extractStridedSlice_apply _ _ _ _ _ (fun b => match b with
    | ⟨0, _⟩ => by show n.val = 0 + n.val; omega
    | ⟨1, _⟩ => by show a.val = 0 + a.val; omega
    | ⟨2, _⟩ => by show 1 + k = 1 + k; rfl)

end Cert.KernelIdeal.Inputs

end
-- ==== Proof.KernelWhole.lean ====
/-
  From the output blocks to the whole result.

  Grid point t works on boxes 32000 t .. 32000 t + 31999: every window's block at t is all rows of its array and
  that stretch of columns.  So what point t writes back is block t of ONE array `arrG` (entry (a, n) is the
  intersection over union for box n and anchor a), the 125 blocks tile the 5 x 4000000 result of the region, and the
  host's final transpose turns it into `Iou.G`.
-/
import proofs.«143591_j31336081391713_2_alg».proof.Proof.KernelBlock
import proofs.«143591_j31336081391713_2_alg».proof.Proof.KernelInputs

set_option maxRecDepth 16384

noncomputable section

namespace Cert.KernelIdeal.Whole

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- Every window's block index at point t: 0 on the row axis, t on the box axis. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The cells' block at point t, lane q, is the cell words of box 32000 t + q. -/
theorem iblk0_apply (c : Dev nD) (t : Fin cfg0.N) (r : Fin 2) (q : Fin 32000) (n : Fin 4000000)
    (hn : n.val = t.val * 32000 + q.val) :
    (iblk m c 0 t : Vec Ideal S2x32000 .i32) (ix2 r q)
      = (m ((c : Thread nD τ).loc main_arg0) : S4000000x2.Idx → BitVec 32) (ix2 n r) := by
  obtain ⟨e0, e1, -⟩ := idx_facts t
  unfold iblk
  rw [View.read_apply, ← Inputs.cells_apply m c r n]
  show V m c main_v0 _ = V m c main_v0 _
  refine congrArg _ (funext fun a => Fin.ext ?_)
  match a with
  | ⟨0, _⟩ => show win0_0.index t 0 * 2 + 1 * r.val = r.val; rw [e0]; omega
  | ⟨1, _⟩ => show win0_0.index t 1 * 32000 + 1 * q.val = n.val; rw [e1, hn]; omega

/-- The ground truth's block at point t, row k, lane q, is component 1 + k of box 32000 t + q. -/
theorem iblk2_apply (c : Dev nD) (t : Fin cfg0.N) (k : Fin 4) (q : Fin 32000) (n : Fin 4000000)
    (hn : n.val = t.val * 32000 + q.val) :
    (iblk m c 2 t : Vec Ideal S4x32000 .f32) (ix2 k q)
      = (m ((c : Thread nD τ).loc main_arg2) : S4000000x5.Idx → EReal) (ix2 n ⟨1 + k.val, by omega⟩) := by
  obtain ⟨-, -, -, -, e0, e1, -⟩ := idx_facts t
  unfold iblk
  rw [View.read_apply, ← Inputs.truth_apply m c k n]
  show V m c main_v5 _ = V m c main_v5 _
  refine congrArg _ (funext fun a => Fin.ext ?_)
  match a with
  | ⟨0, _⟩ => show win0_2.index t 0 * 4 + 1 * k.val = k.val; rw [e0]; omega
  | ⟨1, _⟩ => show win0_2.index t 1 * 32000 + 1 * q.val = n.val; rw [e1, hn]; omega

/-- The predictions' block at point t, row 4a + k, lane q, is component 1 + k of anchor a of box 32000 t + q. -/
theorem iblk1_apply (c : Dev nD) (t : Fin cfg0.N) (a : Fin 5) (k : Nat) (hk : k < 4) (h : 4 * a.val + k < 20)
    (q : Fin 32000) (n : Fin 4000000) (hn : n.val = t.val * 32000 + q.val) :
    (iblk m c 1 t : Vec Ideal S20x32000 .f32) (ix2 ⟨4 * a.val + k, h⟩ q)
      = (m ((c : Thread nD τ).loc main_arg1) : S4000000x5x5.Idx → EReal) (ix3 n a ⟨1 + k, by omega⟩) := by
  obtain ⟨-, -, e0, e1, -⟩ := idx_facts t
  unfold iblk
  rw [View.read_apply, ← Inputs.preds_apply m c a k hk h n]
  show V m c main_v3 _ = V m c main_v3 _
  refine congrArg _ (funext fun b => Fin.ext ?_)
  match b with
  | ⟨0, _⟩ => show win0_1.index t 0 * 20 + 1 * (4 * a.val + k) = 4 * a.val + k; rw [e0]; omega
  | ⟨1, _⟩ => show win0_1.index t 1 * 32000 + 1 * q.val = n.val; rw [e1, hn]; omega

/-- The region's result array: entry (a, n) is `Iou.G` at (n, a). -/
def arrG (C : S4000000x2.Idx → BitVec 32) (O : S4000000x5x5.Idx → EReal) (T : S4000000x5.Idx → EReal) :
    S5x4000000.Idx → EReal := fun j => Iou.G C O T (ix2 (j 1) (j 0))

/-- What point t writes back is block t of `arrG` of the argument arrays. -/
theorem flushed_eq (c : Dev nD) (t : Fin cfg0.N) :
    (dats m 0 c).flushed 3 t = ((cfg0.win 3).blk t).view.read (Elt Ideal)
      (arrG (m ((c : Thread nD τ).loc main_arg0)) (m ((c : Thread nD τ).loc main_arg1)) (m ((c : Thread nD τ).loc main_arg2))) := by
  show (cfg0.win 3).cut (grid0.coords t) ((dats m 0 c).after 3 t) = _
  rw [after0_3, Block.out_eq]
  obtain ⟨-, -, -, -, -, -, e0, e1⟩ := idx_facts t
  have ht : t.val < 125 := by have := t.isLt; have hN : cfg0.N = 125 := N_0; omega
  funext y
  have hy1 : (y 1).val < 32000 := (y 1).isLt
  obtain ⟨n, hn⟩ : ∃ n : Fin 4000000, n.val = t.val * 32000 + (y 1).val := ⟨⟨_, by omega⟩, rfl⟩
  have h0 : (((cfg0.win 3).blk t).view.emb y) 0 = y 0 :=
    Fin.ext (by show win0_3.index t 0 * 5 + 1 * (y 0).val = (y 0).val; rw [e0]; omega)
  have h1 : (((cfg0.win 3).blk t).view.emb y) 1 = n :=
    Fin.ext (by show win0_3.index t 1 * 32000 + 1 * (y 1).val = n.val; rw [e1, hn]; omega)
  rw [View.read_apply]
  show Block.blockEntry (iblk m c 0 t) (iblk m c 1 t) (iblk m c 2 t) (y 0) (y 1)
      = Iou.G (m ((c : Thread nD τ).loc main_arg0)) (m ((c : Thread nD τ).loc main_arg1)) (m ((c : Thread nD τ).loc main_arg2))
          (ix2 ((((cfg0.win 3).blk t).view.emb y) 1) ((((cfg0.win 3).blk t).view.emb y) 0))
  rw [h0, h1]
  unfold Block.blockEntry Iou.G
  rw [iblk0_apply m c t 0 (y 1) n hn, iblk0_apply m c t 1 (y 1) n hn,
    iblk2_apply m c t 0 (y 1) n hn, iblk2_apply m c t 1 (y 1) n hn, iblk2_apply m c t 2 (y 1) n hn, iblk2_apply m c t 3 (y 1) n hn,
    iblk1_apply m c t (y 0) 0 (by decide) _ (y 1) n hn, iblk1_apply m c t (y 0) 1 (by decide) _ (y 1) n hn,
    iblk1_apply m c t (y 0) 2 (by decide) _ (y 1) n hn, iblk1_apply m c t (y 0) 3 (by decide) _ (y 1) n hn]
  rfl

/-- An index of the region's result is in point t's block iff each coordinate is in the block's range. -/
theorem mem_blk (t : Fin cfg0.N) (i : S5x4000000.Idx) :
    i ∈ ((cfg0.win 3).blk t).view.set ↔ ∀ a : Fin 2, win0_3.index t a * S5x32000.size a ≤ (i a).val
      ∧ (i a).val < win0_3.index t a * S5x32000.size a + S5x32000.size a := by
  show i ∈ ((View.whole main_v6).slice (win0_3.rect t)).set ↔ _
  rw [View.set_slice_whole, Rect.mem_set_unit]
  exact Iff.rfl

/-- Box n lies in the block of point n / 32000: the blocks tile the result. -/
theorem cover (i : S5x4000000.Idx) :
    ∃ t : Fin cfg0.N, (cfg0.win 3).flush t = true ∧ i ∈ ((cfg0.win 3).blk t).view.set := by
  have h0 : (i 0).val < 5 := (i 0).isLt
  have h1 : (i 1).val < 4000000 := (i 1).isLt
  have hN : cfg0.N = 125 := N_0
  obtain ⟨t, ht⟩ : ∃ t : Fin cfg0.N, t.val = (i 1).val / 32000 := ⟨⟨(i 1).val / 32000, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t 0 * 5 ≤ (i 0).val ∧ (i 0).val < win0_3.index t 0 * 5 + 5
    rw [e0]; omega
  | ⟨1, _⟩ =>
    show win0_3.index t 1 * 32000 ≤ (i 1).val ∧ (i 1).val < win0_3.index t 1 * 32000 + 32000
    rw [e1, ht]; omega

/-- The region's result array after the run is `arrG` of the argument arrays. -/
theorem final (c : Dev nD) : (dats m 0 c).arrAt 3 cfg0.N
    = arrG (m ((c : Thread nD τ).loc main_arg0)) (m ((c : Thread nD τ).loc main_arg1)) (m ((c : Thread nD τ).loc main_arg2)) :=
  (dats m 0 c).arrAt_eq_of_cover 3 _ (fun t _ => flushed_eq m c t) cover

/-- The host's transpose after the region turns `arrG` into `Iou.G`: the program's result. -/
theorem tail_eq (c : Dev nD) :
    Pipeline.afterTail₀ cfgs (dats m) 0 (V0 m) [hostOps1] c main_v7
      = Iou.G (m ((c : Thread nD τ).loc main_arg0)) (m ((c : Thread nD τ).loc main_arg1)) (m ((c : Thread nD τ).loc main_arg2)) := by
  unfold Pipeline.afterTail₀
  show StableHlo.after hostOps1 _ (Proc.devRef .tc main_v7) = _
  after_results
  have hw := (Pipeline.withArrays_arr spec0 launch0.win.arr_inj c (V0 m c)
    (fun w => (dats m 0 c).arrAt w (cfgs 0).N) 3).trans (final m c)
  refine (congrArg (fun x => transpose S4000000x5 [1, 0] x transposes_S5x4000000_S4000000x5_1_0) hw).trans ?_
  funext i
  obtain ⟨n, a, rfl⟩ : ∃ (n : Fin 4000000) (a : Fin 5), i = ix2 n a := ⟨i 0, i 1, eq_ix2 i⟩
  rw [transpose_ix2_apply]
  rfl

/-- The kernel program's run, read: the result array at `Iou.G` of the argument arrays, the arguments unchanged. -/
theorem run : θ_run defs (onTc (τ := τ) (main (F := Ideal))) ⟨m, fun _ => 0, ρ⟩ fun r => ∀ c : Dev nD,
      r.2.mem ((c.tc : Thread nD τ).loc main_v7)
        = Iou.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefEntry.lean ====
/-
  The reference program read at an index: it computes `Iou.G`.

  Part 1, the predicted boxes.  Row `n` of the cells gives two cell centres (cell · 20 + 10 on the i and the j axis);
  anchor `a` of row `n` of the predictions gives an offset (dx, dy) and a size (h, w).  The program scales offset and
  size by the pitch 20, adds the centres, halves the sizes by dividing by the word 2.0, and stacks the four corners
    x1 = j centre − w/2,  y1 = i centre − h/2,  x2 = j centre + w/2,  y2 = i centre + h/2
  along a new last axis of extent 4.

  Part 2, the ground-truth boxes.  Row `n` of the ground truth gives an offset and a size in columns 1 to 4; with the
  same two cell centres the program forms the four corners in the same way, as columns of extent 1, stacks them along a
  new last axis of extent 4 and drops the unit middle axis.

  Part 3, areas, shared lengths and the quotient.  From the two stacks the program forms the two areas
  (x2 − x1)(y2 − y1), the componentwise larger low corner and smaller high corner, their difference clipped below at
  0, the product of the two clipped lengths, and the quotient  intersection / (area + area − intersection).

  Each lemma reads one named array of the program at an index written in coordinates, from the arrays before it.  The
  only law used is that dividing by the word 2.0 is multiplying by the word 0.5 (`Iou.div_two`); everything else is
  reading layout operations (slices, unit axes added or dropped, repeats along an axis, the two four-piece
  concatenations) at an index.  Read at entry (n, a) the result is the specification's `Iou.ratio` of the eight
  corners, which is `Iou.G`.
-/
import proofs.«143591_j31336081391713_2_alg».proof.Proof.Gen.ReferenceIdeal.Read
import proofs.«143591_j31336081391713_2_alg».proof.Proof.Iou

noncomputable section

namespace Cert.ReferenceIdeal.RefValue

open Cert.ReferenceIdeal Cert.ReferenceIdeal.Gen Cert.ReferenceIdeal.Read Idealize.ShloMosaic Idealize.ShloMosaic.ValueIdx

/-! # Part 1: the predicted boxes -/

/-- The cells: two integer words per row. -/
abbrev Cells : Type := (⟨S4000000x2, .i32⟩ : BufTy).Contents (Elt Ideal)
/-- The predictions: five anchors per row, five components per anchor. -/
abbrev Preds : Type := (⟨S4000000x5x5, .f32⟩ : BufTy).Contents (Elt Ideal)
/-- The ground truth: five components per row. -/
abbrev Truth : Type := (⟨S4000000x5, .f32⟩ : BufTy).Contents (Elt Ideal)

/-- The centre on the i axis of row `n`'s cell. -/
def ctrI (x0 : Cells) (n : Fin 4000000) : EReal :=
  Iou.center (FloatOps.sitofp (F := Ideal) .f32 (x0 (ix2 n (0 : Fin 2))))
/-- The centre on the j axis of row `n`'s cell. -/
def ctrJ (x0 : Cells) (n : Fin 4000000) : EReal :=
  Iou.center (FloatOps.sitofp (F := Ideal) .f32 (x0 (ix2 n (1 : Fin 2))))

/-- The predicted box's low x corner: from the j centre, the offset dy and the width. -/
def pX1 (x0 : Cells) (x1 : Preds) (n : Fin 4000000) (a : Fin 5) : EReal :=
  Iou.lo (ctrJ x0 n) (x1 (ix3 n a 2)) (x1 (ix3 n a 4))
/-- The predicted box's low y corner: from the i centre, the offset dx and the height. -/
def pY1 (x0 : Cells) (x1 : Preds) (n : Fin 4000000) (a : Fin 5) : EReal :=
  Iou.lo (ctrI x0 n) (x1 (ix3 n a 1)) (x1 (ix3 n a 3))
/-- The predicted box's high x corner. -/
def pX2 (x0 : Cells) (x1 : Preds) (n : Fin 4000000) (a : Fin 5) : EReal :=
  Iou.hi (ctrJ x0 n) (x1 (ix3 n a 2)) (x1 (ix3 n a 4))
/-- The predicted box's high y corner. -/
def pY2 (x0 : Cells) (x1 : Preds) (n : Fin 4000000) (a : Fin 5) : EReal :=
  Iou.hi (ctrI x0 n) (x1 (ix3 n a 1)) (x1 (ix3 n a 3))

/-- A low corner as the program computes it — the half size is the scaled size divided by the word 2.0 — is the
    specification's, which multiplies by the word 0.5. -/
theorem lo_eq (ctr d s : EReal) :
    (ctr + d * Ideal.ofBits .f32 0x41A00000#32) - Ideal.div (s * Ideal.ofBits .f32 0x41A00000#32) (Ideal.ofBits .f32 0x40000000#32) = Iou.lo ctr d s := by
  rw [Iou.div_two]; rfl
/-- The same for a high corner. -/
theorem hi_eq (ctr d s : EReal) :
    (ctr + d * Ideal.ofBits .f32 0x41A00000#32) + Ideal.div (s * Ideal.ofBits .f32 0x41A00000#32) (Ideal.ofBits .f32 0x40000000#32) = Iou.hi ctr d s := by
  rw [Iou.div_two]; rfl

/-! ## The four components of a prediction -/

/-- The offset dx of anchor `a` of row `n`: component 1 of the prediction (a slice of the last axis, then the unit
    axis dropped). -/
theorem v1_at (x1 : Preds) (n : Fin 4000000) (a : Fin 5) :
    val_main_v1 (F := Ideal) x1 (ix2 n a) = x1 (ix3 n a 1) := by
  rw [val_main_v1_apply, val_main_v0_apply]
  refine congrArg x1 ?_
  funext d; apply Fin.ext
  match d with
  | ⟨0, _⟩ => show (n.val * 5 + a.val) / 5 = n.val; omega
  | ⟨1, _⟩ => show (n.val * 5 + a.val) / 1 % 5 = a.val; omega
  | ⟨2, _⟩ => rfl

/-- The offset dy of anchor `a` of row `n`: component 2 of the prediction (a slice of the last axis, then the unit
    axis dropped). -/
theorem v3_at (x1 : Preds) (n : Fin 4000000) (a : Fin 5) :
    val_main_v3 (F := Ideal) x1 (ix2 n a) = x1 (ix3 n a 2) := by
  rw [val_main_v3_apply, val_main_v2_apply]
  refine congrArg x1 ?_
  funext d; apply Fin.ext
  match d with
  | ⟨0, _⟩ => show (n.val * 5 + a.val) / 5 = n.val; omega
  | ⟨1, _⟩ => show (n.val * 5 + a.val) / 1 % 5 = a.val; omega
  | ⟨2, _⟩ => rfl

/-- The height h of anchor `a` of row `n`: component 3 of the prediction (a slice of the last axis, then the unit
    axis dropped). -/
theorem v5_at (x1 : Preds) (n : Fin 4000000) (a : Fin 5) :
    val_main_v5 (F := Ideal) x1 (ix2 n a) = x1 (ix3 n a 3) := by
  rw [val_main_v5_apply, val_main_v4_apply]
  refine congrArg x1 ?_
  funext d; apply Fin.ext
  match d with
  | ⟨0, _⟩ => show (n.val * 5 + a.val) / 5 = n.val; omega
  | ⟨1, _⟩ => show (n.val * 5 + a.val) / 1 % 5 = a.val; omega
  | ⟨2, _⟩ => rfl

/-- The width w of anchor `a` of row `n`: component 4 of the prediction (a slice of the last axis, then the unit
    axis dropped). -/
theorem v7_at (x1 : Preds) (n : Fin 4000000) (a : Fin 5) :
    val_main_v7 (F := Ideal) x1 (ix2 n a) = x1 (ix3 n a 4) := by
  rw [val_main_v7_apply, val_main_v6_apply]
  refine congrArg x1 ?_
  funext d; apply Fin.ext
  match d with
  | ⟨0, _⟩ => show (n.val * 5 + a.val) / 5 = n.val; omega
  | ⟨1, _⟩ => show (n.val * 5 + a.val) / 1 % 5 = a.val; omega
  | ⟨2, _⟩ => rfl

/-! ## Offsets and sizes times the pitch -/

/-- The height times the pitch 20. -/
theorem v9_at (x1 : Preds) (n : Fin 4000000) (a : Fin 5) :
    val_main_v9 (F := Ideal) x1 (ix2 n a) = x1 (ix3 n a 3) * Ideal.ofBits .f32 0x41A00000#32 := by
  rw [val_main_v9_apply, val_main_v8_apply, val_main_cst_apply, v5_at]; rfl

/-- The width times the pitch 20. -/
theorem v11_at (x1 : Preds) (n : Fin 4000000) (a : Fin 5) :
    val_main_v11 (F := Ideal) x1 (ix2 n a) = x1 (ix3 n a 4) * Ideal.ofBits .f32 0x41A00000#32 := by
  rw [val_main_v11_apply, val_main_v10_apply, val_main_cst_0_apply, v7_at]; rfl

/-- The offset dx times the pitch 20. -/
theorem v25_at (x1 : Preds) (n : Fin 4000000) (a : Fin 5) :
    val_main_v25 (F := Ideal) x1 (ix2 n a) = x1 (ix3 n a 1) * Ideal.ofBits .f32 0x41A00000#32 := by
  rw [val_main_v25_apply, val_main_v24_apply, val_main_cst_5_apply, v1_at]; rfl

/-- The offset dy times the pitch 20. -/
theorem v29_at (x1 : Preds) (n : Fin 4000000) (a : Fin 5) :
    val_main_v29 (F := Ideal) x1 (ix2 n a) = x1 (ix3 n a 2) * Ideal.ofBits .f32 0x41A00000#32 := by
  rw [val_main_v29_apply, val_main_v28_apply, val_main_cst_6_apply, v3_at]; rfl

/-! ## The two cell centres of a row -/

/-- The i centre of row `n`: the cell word of column 0 as a real, times 20, plus 10. -/
theorem v17_at (x0 : Cells) (n : Fin 4000000) :
    val_main_v17 (F := Ideal) x0 (ix2 n (0 : Fin 1)) = ctrI x0 n := by
  rw [val_main_v17_apply, val_main_v15_apply, val_main_v13_apply, val_main_v12_apply, val_main_v14_apply,
    val_main_cst_1_apply, val_main_v16_apply, val_main_cst_2_apply]
  have e : idx_main_v12 (ix2 n (0 : Fin 1)) = ix2 n (0 : Fin 2) := by
    funext d
    match d with
    | ⟨0, _⟩ => rfl
    | ⟨1, _⟩ => rfl
  rw [e]; rfl

/-- The j centre of row `n`: the cell word of column 1 as a real, times 20, plus 10. -/
theorem v23_at (x0 : Cells) (n : Fin 4000000) :
    val_main_v23 (F := Ideal) x0 (ix2 n (0 : Fin 1)) = ctrJ x0 n := by
  rw [val_main_v23_apply, val_main_v21_apply, val_main_v19_apply, val_main_v18_apply, val_main_v20_apply,
    val_main_cst_3_apply, val_main_v22_apply, val_main_cst_4_apply]
  have e : idx_main_v18 (ix2 n (0 : Fin 1)) = ix2 n (1 : Fin 2) := by
    funext d
    match d with
    | ⟨0, _⟩ => rfl
    | ⟨1, _⟩ => rfl
  rw [e]; rfl

/-- The i centre repeated over the anchors. -/
theorem v26_at (x0 : Cells) (n : Fin 4000000) (a : Fin 5) :
    val_main_v26 (F := Ideal) x0 (ix2 n a) = ctrI x0 n := by
  rw [val_main_v26_apply]
  have e : idx_main_v26 (ix2 n a) = ix2 n (0 : Fin 1) := by
    funext d
    match d with
    | ⟨0, _⟩ => rfl
    | ⟨1, _⟩ => rfl
  rw [e, v17_at]

/-- The j centre repeated over the anchors. -/
theorem v30_at (x0 : Cells) (n : Fin 4000000) (a : Fin 5) :
    val_main_v30 (F := Ideal) x0 (ix2 n a) = ctrJ x0 n := by
  rw [val_main_v30_apply]
  have e : idx_main_v30 (ix2 n a) = ix2 n (0 : Fin 1) := by
    funext d
    match d with
    | ⟨0, _⟩ => rfl
    | ⟨1, _⟩ => rfl
  rw [e, v23_at]

/-! ## Box centres and corners -/

/-- The centre on the i axis of anchor `a` of row `n`: the cell's centre plus the offset dx times the pitch. -/
theorem v27_at (x0 : Cells) (x1 : Preds) (n : Fin 4000000) (a : Fin 5) :
    val_main_v27 (F := Ideal) x0 x1 (ix2 n a) = ctrI x0 n + x1 (ix3 n a 1) * Ideal.ofBits .f32 0x41A00000#32 := by
  rw [val_main_v27_apply, v26_at, v25_at]; rfl

/-- The centre on the j axis: the cell's centre plus the offset dy times the pitch. -/
theorem v31_at (x0 : Cells) (x1 : Preds) (n : Fin 4000000) (a : Fin 5) :
    val_main_v31 (F := Ideal) x0 x1 (ix2 n a) = ctrJ x0 n + x1 (ix3 n a 2) * Ideal.ofBits .f32 0x41A00000#32 := by
  rw [val_main_v31_apply, v30_at, v29_at]; rfl

/-- The predicted box's low x corner: the j centre less half the scaled width. -/
theorem v34_at (x0 : Cells) (x1 : Preds) (n : Fin 4000000) (a : Fin 5) :
    val_main_v34 (F := Ideal) x0 x1 (ix2 n a) = pX1 x0 x1 n a := by
  rw [val_main_v34_apply, val_main_v33_apply, val_main_v32_apply, val_main_cst_7_apply, v31_at, v11_at]
  exact lo_eq _ _ _

/-- The predicted box's low y corner: the i centre less half the scaled height. -/
theorem v37_at (x0 : Cells) (x1 : Preds) (n : Fin 4000000) (a : Fin 5) :
    val_main_v37 (F := Ideal) x0 x1 (ix2 n a) = pY1 x0 x1 n a := by
  rw [val_main_v37_apply, val_main_v36_apply, val_main_v35_apply, val_main_cst_8_apply, v27_at, v9_at]
  exact lo_eq _ _ _

/-- The predicted box's high x corner: the j centre plus half the scaled width. -/
theorem v40_at (x0 : Cells) (x1 : Preds) (n : Fin 4000000) (a : Fin 5) :
    val_main_v40 (F := Ideal) x0 x1 (ix2 n a) = pX2 x0 x1 n a := by
  rw [val_main_v40_apply, val_main_v39_apply, val_main_v38_apply, val_main_cst_9_apply, v31_at, v11_at]
  exact hi_eq _ _ _

/-- The predicted box's high y corner: the i centre plus half the scaled height. -/
theorem v43_at (x0 : Cells) (x1 : Preds) (n : Fin 4000000) (a : Fin 5) :
    val_main_v43 (F := Ideal) x0 x1 (ix2 n a) = pY2 x0 x1 n a := by
  rw [val_main_v43_apply, val_main_v42_apply, val_main_v41_apply, val_main_cst_10_apply, v27_at, v9_at]
  exact hi_eq _ _ _

/-! ## The corners stacked along a last axis of extent 4 -/

/-- Component 0 of the stacked predicted corners is the low x corner: the coordinate 0 on the joined axis falls in piece
    0 of four unit pieces, and that piece is the corner with a unit axis appended. -/
theorem v48_at0 (x0 : Cells) (x1 : Preds) (n : Fin 4000000) (a : Fin 5) :
    val_main_v48 (F := Ideal) x0 x1 (ix3 n a (0 : Fin 4)) = pX1 x0 x1 n a := by
  have piece : val_main_v48 (F := Ideal) x0 x1 (ix3 n a (0 : Fin 4)) = val_main_v44 (F := Ideal) x0 x1 (ix3 n a (0 : Fin 1)) := by
    unfold val_main_v48
    refine concatenate_apply_piece (t := S4000000x5x4) (2 : Fin 3) _ _ (ix3 n a (0 : Fin 4)) 0 ?_ S4000000x5x1 (val_main_v44 (F := Ideal) x0 x1) ?_ rfl 0 ?_
      (ix3 n a (0 : Fin 1)) ?_ ?_
    · show (0 : Nat) < 4; decide
    · rfl
    · rfl
    · intro b hb
      match b with
      | ⟨0, _⟩ => rfl
      | ⟨1, _⟩ => rfl
      | ⟨2, _⟩ => exact absurd rfl hb
    · rfl
  have e : idx_main_v44 (ix3 n a (0 : Fin 1)) = ix2 n a := by
    funext d
    match d with
    | ⟨0, _⟩ => rfl
    | ⟨1, _⟩ => rfl
  rw [piece, val_main_v44_apply, e, v34_at]

/-- Component 1 of the stacked predicted corners is the low y corner: the coordinate 1 on the joined axis falls in piece
    1 of four unit pieces, and that piece is the corner with a unit axis appended. -/
theorem v48_at1 (x0 : Cells) (x1 : Preds) (n : Fin 4000000) (a : Fin 5) :
    val_main_v48 (F := Ideal) x0 x1 (ix3 n a (1 : Fin 4)) = pY1 x0 x1 n a := by
  have piece : val_main_v48 (F := Ideal) x0 x1 (ix3 n a (1 : Fin 4)) = val_main_v45 (F := Ideal) x0 x1 (ix3 n a (0 : Fin 1)) := by
    unfold val_main_v48
    refine concatenate_apply_piece (t := S4000000x5x4) (2 : Fin 3) _ _ (ix3 n a (1 : Fin 4)) 1 ?_ S4000000x5x1 (val_main_v45 (F := Ideal) x0 x1) ?_ rfl 1 ?_
      (ix3 n a (0 : Fin 1)) ?_ ?_
    · show (1 : Nat) < 4; decide
    · rfl
    · rfl
    · intro b hb
      match b with
      | ⟨0, _⟩ => rfl
      | ⟨1, _⟩ => rfl
      | ⟨2, _⟩ => exact absurd rfl hb
    · rfl
  have e : idx_main_v45 (ix3 n a (0 : Fin 1)) = ix2 n a := by
    funext d
    match d with
    | ⟨0, _⟩ => rfl
    | ⟨1, _⟩ => rfl
  rw [piece, val_main_v45_apply, e, v37_at]

/-- Component 2 of the stacked predicted corners is the high x corner: the coordinate 2 on the joined axis falls in piece
    2 of four unit pieces, and that piece is the corner with a unit axis appended. -/
theorem v48_at2 (x0 : Cells) (x1 : Preds) (n : Fin 4000000) (a : Fin 5) :
    val_main_v48 (F := Ideal) x0 x1 (ix3 n a (2 : Fin 4)) = pX2 x0 x1 n a := by
  have piece : val_main_v48 (F := Ideal) x0 x1 (ix3 n a (2 : Fin 4)) = val_main_v46 (F := Ideal) x0 x1 (ix3 n a (0 : Fin 1)) := by
    unfold val_main_v48
    refine concatenate_apply_piece (t := S4000000x5x4) (2 : Fin 3) _ _ (ix3 n a (2 : Fin 4)) 2 ?_ S4000000x5x1 (val_main_v46 (F := Ideal) x0 x1) ?_ rfl 2 ?_
      (ix3 n a (0 : Fin 1)) ?_ ?_
    · show (2 : Nat) < 4; decide
    · rfl
    · rfl
    · intro b hb
      match b with
      | ⟨0, _⟩ => rfl
      | ⟨1, _⟩ => rfl
      | ⟨2, _⟩ => exact absurd rfl hb
    · rfl
  have e : idx_main_v46 (ix3 n a (0 : Fin 1)) = ix2 n a := by
    funext d
    match d with
    | ⟨0, _⟩ => rfl
    | ⟨1, _⟩ => rfl
  rw [piece, val_main_v46_apply, e, v40_at]

/-- Component 3 of the stacked predicted corners is the high y corner: the coordinate 3 on the joined axis falls in piece
    3 of four unit pieces, and that piece is the corner with a unit axis appended. -/
theorem v48_at3 (x0 : Cells) (x1 : Preds) (n : Fin 4000000) (a : Fin 5) :
    val_main_v48 (F := Ideal) x0 x1 (ix3 n a (3 : Fin 4)) = pY2 x0 x1 n a := by
  have piece : val_main_v48 (F := Ideal) x0 x1 (ix3 n a (3 : Fin 4)) = val_main_v47 (F := Ideal) x0 x1 (ix3 n a (0 : Fin 1)) := by
    unfold val_main_v48
    refine concatenate_apply_piece (t := S4000000x5x4) (2 : Fin 3) _ _ (ix3 n a (3 : Fin 4)) 3 ?_ S4000000x5x1 (val_main_v47 (F := Ideal) x0 x1) ?_ rfl 3 ?_
      (ix3 n a (0 : Fin 1)) ?_ ?_
    · show (3 : Nat) < 4; decide
    · rfl
    · rfl
    · intro b hb
      match b with
      | ⟨0, _⟩ => rfl
      | ⟨1, _⟩ => rfl
      | ⟨2, _⟩ => exact absurd rfl hb
    · rfl
  have e : idx_main_v47 (ix3 n a (0 : Fin 1)) = ix2 n a := by
    funext d
    match d with
    | ⟨0, _⟩ => rfl
    | ⟨1, _⟩ => rfl
  rw [piece, val_main_v47_apply, e, v43_at]

/-! # Part 2: the ground-truth boxes -/

/-- The ground-truth box's low x corner: from the j centre, the offset dy and the width. -/
def gX1 (x0 : Cells) (x2 : Truth) (n : Fin 4000000) : EReal :=
  Iou.lo (ctrJ x0 n) (x2 (ix2 n 2)) (x2 (ix2 n 4))
/-- The ground-truth box's low y corner: from the i centre, the offset dx and the height. -/
def gY1 (x0 : Cells) (x2 : Truth) (n : Fin 4000000) : EReal :=
  Iou.lo (ctrI x0 n) (x2 (ix2 n 1)) (x2 (ix2 n 3))
/-- The ground-truth box's high x corner. -/
def gX2 (x0 : Cells) (x2 : Truth) (n : Fin 4000000) : EReal :=
  Iou.hi (ctrJ x0 n) (x2 (ix2 n 2)) (x2 (ix2 n 4))
/-- The ground-truth box's high y corner. -/
def gY2 (x0 : Cells) (x2 : Truth) (n : Fin 4000000) : EReal :=
  Iou.hi (ctrI x0 n) (x2 (ix2 n 1)) (x2 (ix2 n 3))

/-! ## The four components of a ground-truth row -/

/-- The offset dx of row `n`'s ground-truth box: column 1 of the ground truth, as a column of extent 1. -/
theorem v49_at (x2 : Truth) (n : Fin 4000000) :
    val_main_v49 (F := Ideal) x2 (ix2 n (0 : Fin 1)) = x2 (ix2 n 1) := by
  rw [val_main_v49_apply]
  refine congrArg x2 ?_
  funext d
  match d with
  | ⟨0, _⟩ => rfl
  | ⟨1, _⟩ => rfl

/-- The offset dy of row `n`'s ground-truth box: column 2 of the ground truth, as a column of extent 1. -/
theorem v50_at (x2 : Truth) (n : Fin 4000000) :
    val_main_v50 (F := Ideal) x2 (ix2 n (0 : Fin 1)) = x2 (ix2 n 2) := by
  rw [val_main_v50_apply]
  refine congrArg x2 ?_
  funext d
  match d with
  | ⟨0, _⟩ => rfl
  | ⟨1, _⟩ => rfl

/-- The height h of row `n`'s ground-truth box: column 3 of the ground truth, as a column of extent 1. -/
theorem v51_at (x2 : Truth) (n : Fin 4000000) :
    val_main_v51 (F := Ideal) x2 (ix2 n (0 : Fin 1)) = x2 (ix2 n 3) := by
  rw [val_main_v51_apply]
  refine congrArg x2 ?_
  funext d
  match d with
  | ⟨0, _⟩ => rfl
  | ⟨1, _⟩ => rfl

/-- The width w of row `n`'s ground-truth box: column 4 of the ground truth, as a column of extent 1. -/
theorem v52_at (x2 : Truth) (n : Fin 4000000) :
    val_main_v52 (F := Ideal) x2 (ix2 n (0 : Fin 1)) = x2 (ix2 n 4) := by
  rw [val_main_v52_apply]
  refine congrArg x2 ?_
  funext d
  match d with
  | ⟨0, _⟩ => rfl
  | ⟨1, _⟩ => rfl

/-! ## Sizes and offsets times the pitch -/

/-- The height times the pitch 20. -/
theorem v54_at (x2 : Truth) (n : Fin 4000000) :
    val_main_v54 (F := Ideal) x2 (ix2 n (0 : Fin 1)) = x2 (ix2 n 3) * Ideal.ofBits .f32 0x41A00000#32 := by
  rw [val_main_v54_apply, val_main_v53_apply, val_main_cst_11_apply, v51_at]; rfl

/-- The width times the pitch 20. -/
theorem v56_at (x2 : Truth) (n : Fin 4000000) :
    val_main_v56 (F := Ideal) x2 (ix2 n (0 : Fin 1)) = x2 (ix2 n 4) * Ideal.ofBits .f32 0x41A00000#32 := by
  rw [val_main_v56_apply, val_main_v55_apply, val_main_cst_12_apply, v52_at]; rfl

/-- The offset dx times the pitch 20. -/
theorem v70_at (x2 : Truth) (n : Fin 4000000) :
    val_main_v70 (F := Ideal) x2 (ix2 n (0 : Fin 1)) = x2 (ix2 n 1) * Ideal.ofBits .f32 0x41A00000#32 := by
  rw [val_main_v70_apply, val_main_v69_apply, val_main_cst_17_apply, v49_at]; rfl

/-- The offset dy times the pitch 20. -/
theorem v73_at (x2 : Truth) (n : Fin 4000000) :
    val_main_v73 (F := Ideal) x2 (ix2 n (0 : Fin 1)) = x2 (ix2 n 2) * Ideal.ofBits .f32 0x41A00000#32 := by
  rw [val_main_v73_apply, val_main_v72_apply, val_main_cst_18_apply, v50_at]; rfl

/-! ## The two cell centres of a row (computed a second time by the program) -/

/-- The i centre of row `n`. -/
theorem v62_at (x0 : Cells) (n : Fin 4000000) :
    val_main_v62 (F := Ideal) x0 (ix2 n (0 : Fin 1)) = ctrI x0 n := by
  rw [val_main_v62_apply, val_main_v60_apply, val_main_v58_apply, val_main_v57_apply, val_main_v59_apply,
    val_main_cst_13_apply, val_main_v61_apply, val_main_cst_14_apply]
  have e : idx_main_v57 (ix2 n (0 : Fin 1)) = ix2 n (0 : Fin 2) := by
    funext d
    match d with
    | ⟨0, _⟩ => rfl
    | ⟨1, _⟩ => rfl
  rw [e]; rfl

/-- The j centre of row `n`. -/
theorem v68_at (x0 : Cells) (n : Fin 4000000) :
    val_main_v68 (F := Ideal) x0 (ix2 n (0 : Fin 1)) = ctrJ x0 n := by
  rw [val_main_v68_apply, val_main_v66_apply, val_main_v64_apply, val_main_v63_apply, val_main_v65_apply,
    val_main_cst_15_apply, val_main_v67_apply, val_main_cst_16_apply]
  have e : idx_main_v63 (ix2 n (0 : Fin 1)) = ix2 n (1 : Fin 2) := by
    funext d
    match d with
    | ⟨0, _⟩ => rfl
    | ⟨1, _⟩ => rfl
  rw [e]; rfl

/-! ## Box centres and corners -/

/-- The centre on the i axis of row `n`'s ground-truth box: the cell's centre plus the offset dx times the pitch. -/
theorem v71_at (x0 : Cells) (x2 : Truth) (n : Fin 4000000) :
    val_main_v71 (F := Ideal) x0 x2 (ix2 n (0 : Fin 1)) = ctrI x0 n + x2 (ix2 n 1) * Ideal.ofBits .f32 0x41A00000#32 := by
  rw [val_main_v71_apply, v62_at, v70_at]; rfl

/-- The centre on the j axis: the cell's centre plus the offset dy times the pitch. -/
theorem v74_at (x0 : Cells) (x2 : Truth) (n : Fin 4000000) :
    val_main_v74 (F := Ideal) x0 x2 (ix2 n (0 : Fin 1)) = ctrJ x0 n + x2 (ix2 n 2) * Ideal.ofBits .f32 0x41A00000#32 := by
  rw [val_main_v74_apply, v68_at, v73_at]; rfl

/-- The ground-truth box's low x corner: the j centre less half the scaled width. -/
theorem v77_at (x0 : Cells) (x2 : Truth) (n : Fin 4000000) :
    val_main_v77 (F := Ideal) x0 x2 (ix2 n (0 : Fin 1)) = gX1 x0 x2 n := by
  rw [val_main_v77_apply, val_main_v76_apply, val_main_v75_apply, val_main_cst_19_apply, v74_at, v56_at]
  exact lo_eq _ _ _

/-- The ground-truth box's low y corner: the i centre less half the scaled height. -/
theorem v80_at (x0 : Cells) (x2 : Truth) (n : Fin 4000000) :
    val_main_v80 (F := Ideal) x0 x2 (ix2 n (0 : Fin 1)) = gY1 x0 x2 n := by
  rw [val_main_v80_apply, val_main_v79_apply, val_main_v78_apply, val_main_cst_20_apply, v71_at, v54_at]
  exact lo_eq _ _ _

/-- The ground-truth box's high x corner: the j centre plus half the scaled width. -/
theorem v83_at (x0 : Cells) (x2 : Truth) (n : Fin 4000000) :
    val_main_v83 (F := Ideal) x0 x2 (ix2 n (0 : Fin 1)) = gX2 x0 x2 n := by
  rw [val_main_v83_apply, val_main_v82_apply, val_main_v81_apply, val_main_cst_21_apply, v74_at, v56_at]
  exact hi_eq _ _ _

/-- The ground-truth box's high y corner: the i centre plus half the scaled height. -/
theorem v86_at (x0 : Cells) (x2 : Truth) (n : Fin 4000000) :
    val_main_v86 (F := Ideal) x0 x2 (ix2 n (0 : Fin 1)) = gY2 x0 x2 n := by
  rw [val_main_v86_apply, val_main_v85_apply, val_main_v84_apply, val_main_cst_22_apply, v71_at, v54_at]
  exact hi_eq _ _ _

/-! ## The corners stacked along a last axis of extent 4, and the unit middle axis dropped -/

/-- Dropping the unit middle axis: entry (n, k) of the flat array is entry (n, 0, k) of the stacked one. -/
theorem idx_v92 (n : Fin 4000000) (k : Fin 4) : idx_main_v92 (ix2 n k) = ix3 n (0 : Fin 1) k := by
  funext d; apply Fin.ext
  match d with
  | ⟨0, _⟩ => show (n.val * 4 + k.val) / 4 = n.val; omega
  | ⟨1, _⟩ => rfl
  | ⟨2, _⟩ => show (n.val * 4 + k.val) % 4 = k.val; omega

/-- Component 0 of the stacked ground-truth corners is the low x corner: the coordinate 0 on the joined axis falls in
    piece 0 of four unit pieces, and that piece is the corner with a unit axis appended. -/
theorem v91_at0 (x0 : Cells) (x2 : Truth) (n : Fin 4000000) :
    val_main_v91 (F := Ideal) x0 x2 (ix3 n (0 : Fin 1) (0 : Fin 4)) = gX1 x0 x2 n := by
  have piece : val_main_v91 (F := Ideal) x0 x2 (ix3 n (0 : Fin 1) (0 : Fin 4))
      = val_main_v87 (F := Ideal) x0 x2 (ix3 n (0 : Fin 1) (0 : Fin 1)) := by
    unfold val_main_v91
    refine concatenate_apply_piece (t := S4000000x1x4) (2 : Fin 3) _ _ (ix3 n (0 : Fin 1) (0 : Fin 4)) 0 ?_ S4000000x1x1 (val_main_v87 (F := Ideal) x0 x2) ?_ rfl 0 ?_
      (ix3 n (0 : Fin 1) (0 : Fin 1)) ?_ ?_
    · show (0 : Nat) < 4; decide
    · rfl
    · rfl
    · intro b hb
      match b with
      | ⟨0, _⟩ => rfl
      | ⟨1, _⟩ => rfl
      | ⟨2, _⟩ => exact absurd rfl hb
    · rfl
  have e : idx_main_v87 (ix3 n (0 : Fin 1) (0 : Fin 1)) = ix2 n (0 : Fin 1) := by
    funext d
    match d with
    | ⟨0, _⟩ => rfl
    | ⟨1, _⟩ => rfl
  rw [piece, val_main_v87_apply, e, v77_at]

/-- The same component with the unit middle axis dropped. -/
theorem v92_at0 (x0 : Cells) (x2 : Truth) (n : Fin 4000000) :
    val_main_v92 (F := Ideal) x0 x2 (ix2 n (0 : Fin 4)) = gX1 x0 x2 n := by
  rw [val_main_v92_apply, idx_v92, v91_at0]

/-- Component 1 of the stacked ground-truth corners is the low y corner: the coordinate 1 on the joined axis falls in
    piece 1 of four unit pieces, and that piece is the corner with a unit axis appended. -/
theorem v91_at1 (x0 : Cells) (x2 : Truth) (n : Fin 4000000) :
    val_main_v91 (F := Ideal) x0 x2 (ix3 n (0 : Fin 1) (1 : Fin 4)) = gY1 x0 x2 n := by
  have piece : val_main_v91 (F := Ideal) x0 x2 (ix3 n (0 : Fin 1) (1 : Fin 4))
      = val_main_v88 (F := Ideal) x0 x2 (ix3 n (0 : Fin 1) (0 : Fin 1)) := by
    unfold val_main_v91
    refine concatenate_apply_piece (t := S4000000x1x4) (2 : Fin 3) _ _ (ix3 n (0 : Fin 1) (1 : Fin 4)) 1 ?_ S4000000x1x1 (val_main_v88 (F := Ideal) x0 x2) ?_ rfl 1 ?_
      (ix3 n (0 : Fin 1) (0 : Fin 1)) ?_ ?_
    · show (1 : Nat) < 4; decide
    · rfl
    · rfl
    · intro b hb
      match b with
      | ⟨0, _⟩ => rfl
      | ⟨1, _⟩ => rfl
      | ⟨2, _⟩ => exact absurd rfl hb
    · rfl
  have e : idx_main_v88 (ix3 n (0 : Fin 1) (0 : Fin 1)) = ix2 n (0 : Fin 1) := by
    funext d
    match d with
    | ⟨0, _⟩ => rfl
    | ⟨1, _⟩ => rfl
  rw [piece, val_main_v88_apply, e, v80_at]

/-- The same component with the unit middle axis dropped. -/
theorem v92_at1 (x0 : Cells) (x2 : Truth) (n : Fin 4000000) :
    val_main_v92 (F := Ideal) x0 x2 (ix2 n (1 : Fin 4)) = gY1 x0 x2 n := by
  rw [val_main_v92_apply, idx_v92, v91_at1]

/-- Component 2 of the stacked ground-truth corners is the high x corner: the coordinate 2 on the joined axis falls in
    piece 2 of four unit pieces, and that piece is the corner with a unit axis appended. -/
theorem v91_at2 (x0 : Cells) (x2 : Truth) (n : Fin 4000000) :
    val_main_v91 (F := Ideal) x0 x2 (ix3 n (0 : Fin 1) (2 : Fin 4)) = gX2 x0 x2 n := by
  have piece : val_main_v91 (F := Ideal) x0 x2 (ix3 n (0 : Fin 1) (2 : Fin 4))
      = val_main_v89 (F := Ideal) x0 x2 (ix3 n (0 : Fin 1) (0 : Fin 1)) := by
    unfold val_main_v91
    refine concatenate_apply_piece (t := S4000000x1x4) (2 : Fin 3) _ _ (ix3 n (0 : Fin 1) (2 : Fin 4)) 2 ?_ S4000000x1x1 (val_main_v89 (F := Ideal) x0 x2) ?_ rfl 2 ?_
      (ix3 n (0 : Fin 1) (0 : Fin 1)) ?_ ?_
    · show (2 : Nat) < 4; decide
    · rfl
    · rfl
    · intro b hb
      match b with
      | ⟨0, _⟩ => rfl
      | ⟨1, _⟩ => rfl
      | ⟨2, _⟩ => exact absurd rfl hb
    · rfl
  have e : idx_main_v89 (ix3 n (0 : Fin 1) (0 : Fin 1)) = ix2 n (0 : Fin 1) := by
    funext d
    match d with
    | ⟨0, _⟩ => rfl
    | ⟨1, _⟩ => rfl
  rw [piece, val_main_v89_apply, e, v83_at]

/-- The same component with the unit middle axis dropped. -/
theorem v92_at2 (x0 : Cells) (x2 : Truth) (n : Fin 4000000) :
    val_main_v92 (F := Ideal) x0 x2 (ix2 n (2 : Fin 4)) = gX2 x0 x2 n := by
  rw [val_main_v92_apply, idx_v92, v91_at2]

/-- Component 3 of the stacked ground-truth corners is the high y corner: the coordinate 3 on the joined axis falls in
    piece 3 of four unit pieces, and that piece is the corner with a unit axis appended. -/
theorem v91_at3 (x0 : Cells) (x2 : Truth) (n : Fin 4000000) :
    val_main_v91 (F := Ideal) x0 x2 (ix3 n (0 : Fin 1) (3 : Fin 4)) = gY2 x0 x2 n := by
  have piece : val_main_v91 (F := Ideal) x0 x2 (ix3 n (0 : Fin 1) (3 : Fin 4))
      = val_main_v90 (F := Ideal) x0 x2 (ix3 n (0 : Fin 1) (0 : Fin 1)) := by
    unfold val_main_v91
    refine concatenate_apply_piece (t := S4000000x1x4) (2 : Fin 3) _ _ (ix3 n (0 : Fin 1) (3 : Fin 4)) 3 ?_ S4000000x1x1 (val_main_v90 (F := Ideal) x0 x2) ?_ rfl 3 ?_
      (ix3 n (0 : Fin 1) (0 : Fin 1)) ?_ ?_
    · show (3 : Nat) < 4; decide
    · rfl
    · rfl
    · intro b hb
      match b with
      | ⟨0, _⟩ => rfl
      | ⟨1, _⟩ => rfl
      | ⟨2, _⟩ => exact absurd rfl hb
    · rfl
  have e : idx_main_v90 (ix3 n (0 : Fin 1) (0 : Fin 1)) = ix2 n (0 : Fin 1) := by
    funext d
    match d with
    | ⟨0, _⟩ => rfl
    | ⟨1, _⟩ => rfl
  rw [piece, val_main_v90_apply, e, v86_at]

/-- The same component with the unit middle axis dropped. -/
theorem v92_at3 (x0 : Cells) (x2 : Truth) (n : Fin 4000000) :
    val_main_v92 (F := Ideal) x0 x2 (ix2 n (3 : Fin 4)) = gY2 x0 x2 n := by
  rw [val_main_v92_apply, idx_v92, v91_at3]

/-! # Part 3: areas, shared lengths and the quotient -/

/-! ## Single corners out of the two stacks -/

/-- The high x corners of the predicted boxes: component 2 of the stack, the unit axis dropped. -/
theorem v94_at (x0 : Cells) (x1 : Preds) (n : Fin 4000000) (a : Fin 5) :
    val_main_v94 (F := Ideal) x0 x1 (ix2 n a) = pX2 x0 x1 n a := by
  rw [val_main_v94_apply, val_main_v93_apply]
  have e : idx_main_v93 (idx_main_v94 (ix2 n a)) = ix3 n a (2 : Fin 4) := by
    funext d; apply Fin.ext
    match d with
    | ⟨0, _⟩ => show (n.val * 5 + a.val) / 5 = n.val; omega
    | ⟨1, _⟩ => show (n.val * 5 + a.val) / 1 % 5 = a.val; omega
    | ⟨2, _⟩ => rfl
  rw [e, v48_at2]

/-- The low x corners of the predicted boxes: component 0 of the stack, the unit axis dropped. -/
theorem v96_at (x0 : Cells) (x1 : Preds) (n : Fin 4000000) (a : Fin 5) :
    val_main_v96 (F := Ideal) x0 x1 (ix2 n a) = pX1 x0 x1 n a := by
  rw [val_main_v96_apply, val_main_v95_apply]
  have e : idx_main_v95 (idx_main_v96 (ix2 n a)) = ix3 n a (0 : Fin 4) := by
    funext d; apply Fin.ext
    match d with
    | ⟨0, _⟩ => show (n.val * 5 + a.val) / 5 = n.val; omega
    | ⟨1, _⟩ => show (n.val * 5 + a.val) / 1 % 5 = a.val; omega
    | ⟨2, _⟩ => rfl
  rw [e, v48_at0]

/-- The high y corners of the predicted boxes: component 3 of the stack, the unit axis dropped. -/
theorem v99_at (x0 : Cells) (x1 : Preds) (n : Fin 4000000) (a : Fin 5) :
    val_main_v99 (F := Ideal) x0 x1 (ix2 n a) = pY2 x0 x1 n a := by
  rw [val_main_v99_apply, val_main_v98_apply]
  have e : idx_main_v98 (idx_main_v99 (ix2 n a)) = ix3 n a (3 : Fin 4) := by
    funext d; apply Fin.ext
    match d with
    | ⟨0, _⟩ => show (n.val * 5 + a.val) / 5 = n.val; omega
    | ⟨1, _⟩ => show (n.val * 5 + a.val) / 1 % 5 = a.val; omega
    | ⟨2, _⟩ => rfl
  rw [e, v48_at3]

/-- The low y corners of the predicted boxes: component 1 of the stack, the unit axis dropped. -/
theorem v101_at (x0 : Cells) (x1 : Preds) (n : Fin 4000000) (a : Fin 5) :
    val_main_v101 (F := Ideal) x0 x1 (ix2 n a) = pY1 x0 x1 n a := by
  rw [val_main_v101_apply, val_main_v100_apply]
  have e : idx_main_v100 (idx_main_v101 (ix2 n a)) = ix3 n a (1 : Fin 4) := by
    funext d; apply Fin.ext
    match d with
    | ⟨0, _⟩ => show (n.val * 5 + a.val) / 5 = n.val; omega
    | ⟨1, _⟩ => show (n.val * 5 + a.val) / 1 % 5 = a.val; omega
    | ⟨2, _⟩ => rfl
  rw [e, v48_at1]

/-- The high x corners of the ground-truth boxes: column 2 of the flat stack, as a rank-1 array. -/
theorem v105_at (x0 : Cells) (x2 : Truth) (n : Fin 4000000) :
    val_main_v105 (F := Ideal) x0 x2 (ix1 n) = gX2 x0 x2 n := by
  rw [val_main_v105_apply, val_main_v104_apply]
  have e : idx_main_v104 (idx_main_v105 (ix1 n)) = ix2 n (2 : Fin 4) := by
    funext d; apply Fin.ext
    match d with
    | ⟨0, _⟩ => show n.val / 1 = n.val; omega
    | ⟨1, _⟩ => rfl
  rw [e, v92_at2]

/-- The low x corners of the ground-truth boxes: column 0 of the flat stack, as a rank-1 array. -/
theorem v107_at (x0 : Cells) (x2 : Truth) (n : Fin 4000000) :
    val_main_v107 (F := Ideal) x0 x2 (ix1 n) = gX1 x0 x2 n := by
  rw [val_main_v107_apply, val_main_v106_apply]
  have e : idx_main_v106 (idx_main_v107 (ix1 n)) = ix2 n (0 : Fin 4) := by
    funext d; apply Fin.ext
    match d with
    | ⟨0, _⟩ => show n.val / 1 = n.val; omega
    | ⟨1, _⟩ => rfl
  rw [e, v92_at0]

/-- The high y corners of the ground-truth boxes: column 3 of the flat stack, as a rank-1 array. -/
theorem v110_at (x0 : Cells) (x2 : Truth) (n : Fin 4000000) :
    val_main_v110 (F := Ideal) x0 x2 (ix1 n) = gY2 x0 x2 n := by
  rw [val_main_v110_apply, val_main_v109_apply]
  have e : idx_main_v109 (idx_main_v110 (ix1 n)) = ix2 n (3 : Fin 4) := by
    funext d; apply Fin.ext
    match d with
    | ⟨0, _⟩ => show n.val / 1 = n.val; omega
    | ⟨1, _⟩ => rfl
  rw [e, v92_at3]

/-- The low y corners of the ground-truth boxes: column 1 of the flat stack, as a rank-1 array. -/
theorem v112_at (x0 : Cells) (x2 : Truth) (n : Fin 4000000) :
    val_main_v112 (F := Ideal) x0 x2 (ix1 n) = gY1 x0 x2 n := by
  rw [val_main_v112_apply, val_main_v111_apply]
  have e : idx_main_v111 (idx_main_v112 (ix1 n)) = ix2 n (1 : Fin 4) := by
    funext d; apply Fin.ext
    match d with
    | ⟨0, _⟩ => show n.val / 1 = n.val; omega
    | ⟨1, _⟩ => rfl
  rw [e, v92_at1]

/-! ## The two areas -/

/-- The area of a predicted box: width of the x interval times width of the y interval. -/
theorem v103_at (x0 : Cells) (x1 : Preds) (n : Fin 4000000) (a : Fin 5) :
    val_main_v103 (F := Ideal) x0 x1 (ix2 n a)
      = (pX2 x0 x1 n a - pX1 x0 x1 n a) * (pY2 x0 x1 n a - pY1 x0 x1 n a) := by
  rw [val_main_v103_apply, val_main_v97_apply, val_main_v102_apply, v94_at, v96_at, v99_at, v101_at]; rfl

/-- The area of a ground-truth box. -/
theorem v114_at (x0 : Cells) (x2 : Truth) (n : Fin 4000000) :
    val_main_v114 (F := Ideal) x0 x2 (ix1 n) = (gX2 x0 x2 n - gX1 x0 x2 n) * (gY2 x0 x2 n - gY1 x0 x2 n) := by
  rw [val_main_v114_apply, val_main_v108_apply, val_main_v113_apply, v105_at, v107_at, v110_at, v112_at]; rfl

/-- The ground-truth area repeated over the anchors. -/
theorem v133_at (x0 : Cells) (x2 : Truth) (n : Fin 4000000) (a : Fin 5) :
    val_main_v133 (F := Ideal) x0 x2 (ix2 n a) = (gX2 x0 x2 n - gX1 x0 x2 n) * (gY2 x0 x2 n - gY1 x0 x2 n) := by
  rw [val_main_v133_apply, val_main_v132_apply]
  have e : idx_main_v132 (idx_main_v133 (ix2 n a)) = ix1 n := by
    funext d
    match d with
    | ⟨0, _⟩ => rfl
  rw [e, v114_at]

/-! ## The shared interval on each axis -/

/-- The larger of the two low x corners: the left end of the shared x interval. -/
theorem v119_at0 (x0 : Cells) (x1 : Preds) (x2 : Truth) (n : Fin 4000000) (a : Fin 5) :
    val_main_v119 (F := Ideal) x0 x1 x2 (ix3 n a (0 : Fin 2)) = max (pX1 x0 x1 n a) (gX1 x0 x2 n) := by
  rw [val_main_v119_apply, val_main_v115_apply, val_main_v118_apply, val_main_v117_apply, val_main_v116_apply]
  have e1 : idx_main_v115 (ix3 n a (0 : Fin 2)) = ix3 n a (0 : Fin 4) := by
    funext d
    match d with
    | ⟨0, _⟩ => rfl
    | ⟨1, _⟩ => rfl
    | ⟨2, _⟩ => rfl
  have e2 : idx_main_v116 (idx_main_v117 (idx_main_v118 (ix3 n a (0 : Fin 2)))) = ix2 n (0 : Fin 4) := by
    funext d
    match d with
    | ⟨0, _⟩ => rfl
    | ⟨1, _⟩ => rfl
  rw [e1, e2, v48_at0, v92_at0]; rfl

/-- The larger of the two low y corners. -/
theorem v119_at1 (x0 : Cells) (x1 : Preds) (x2 : Truth) (n : Fin 4000000) (a : Fin 5) :
    val_main_v119 (F := Ideal) x0 x1 x2 (ix3 n a (1 : Fin 2)) = max (pY1 x0 x1 n a) (gY1 x0 x2 n) := by
  rw [val_main_v119_apply, val_main_v115_apply, val_main_v118_apply, val_main_v117_apply, val_main_v116_apply]
  have e1 : idx_main_v115 (ix3 n a (1 : Fin 2)) = ix3 n a (1 : Fin 4) := by
    funext d
    match d with
    | ⟨0, _⟩ => rfl
    | ⟨1, _⟩ => rfl
    | ⟨2, _⟩ => rfl
  have e2 : idx_main_v116 (idx_main_v117 (idx_main_v118 (ix3 n a (1 : Fin 2)))) = ix2 n (1 : Fin 4) := by
    funext d
    match d with
    | ⟨0, _⟩ => rfl
    | ⟨1, _⟩ => rfl
  rw [e1, e2, v48_at1, v92_at1]; rfl

/-- The smaller of the two high x corners: the right end of the shared x interval. -/
theorem v124_at0 (x0 : Cells) (x1 : Preds) (x2 : Truth) (n : Fin 4000000) (a : Fin 5) :
    val_main_v124 (F := Ideal) x0 x1 x2 (ix3 n a (0 : Fin 2)) = min (pX2 x0 x1 n a) (gX2 x0 x2 n) := by
  rw [val_main_v124_apply, val_main_v120_apply, val_main_v123_apply, val_main_v122_apply, val_main_v121_apply]
  have e1 : idx_main_v120 (ix3 n a (0 : Fin 2)) = ix3 n a (2 : Fin 4) := by
    funext d
    match d with
    | ⟨0, _⟩ => rfl
    | ⟨1, _⟩ => rfl
    | ⟨2, _⟩ => rfl
  have e2 : idx_main_v121 (idx_main_v122 (idx_main_v123 (ix3 n a (0 : Fin 2)))) = ix2 n (2 : Fin 4) := by
    funext d
    match d with
    | ⟨0, _⟩ => rfl
    | ⟨1, _⟩ => rfl
  rw [e1, e2, v48_at2, v92_at2]; rfl

/-- The smaller of the two high y corners. -/
theorem v124_at1 (x0 : Cells) (x1 : Preds) (x2 : Truth) (n : Fin 4000000) (a : Fin 5) :
    val_main_v124 (F := Ideal) x0 x1 x2 (ix3 n a (1 : Fin 2)) = min (pY2 x0 x1 n a) (gY2 x0 x2 n) := by
  rw [val_main_v124_apply, val_main_v120_apply, val_main_v123_apply, val_main_v122_apply, val_main_v121_apply]
  have e1 : idx_main_v120 (ix3 n a (1 : Fin 2)) = ix3 n a (3 : Fin 4) := by
    funext d
    match d with
    | ⟨0, _⟩ => rfl
    | ⟨1, _⟩ => rfl
    | ⟨2, _⟩ => rfl
  have e2 : idx_main_v121 (idx_main_v122 (idx_main_v123 (ix3 n a (1 : Fin 2)))) = ix2 n (3 : Fin 4) := by
    funext d
    match d with
    | ⟨0, _⟩ => rfl
    | ⟨1, _⟩ => rfl
  rw [e1, e2, v48_at3, v92_at3]; rfl

/-- The length the two boxes share on the x axis: the difference of the two ends, clipped below at the word 0.0 (the
    zero word is the FIRST operand of the maximum). -/
theorem v126_at0 (x0 : Cells) (x1 : Preds) (x2 : Truth) (n : Fin 4000000) (a : Fin 5) :
    val_main_v126 (F := Ideal) x0 x1 x2 (ix3 n a (0 : Fin 2))
      = Iou.overlap (pX1 x0 x1 n a) (gX1 x0 x2 n) (pX2 x0 x1 n a) (gX2 x0 x2 n) := by
  rw [val_main_v126_apply, val_main_call0_v1_apply, val_main_call0_v0_apply, val_main_cst_23_apply, val_main_v125_apply,
    v124_at0, v119_at0]; rfl

/-- The length the two boxes share on the y axis: the difference of the two ends, clipped below at the word 0.0 (the
    zero word is the FIRST operand of the maximum). -/
theorem v126_at1 (x0 : Cells) (x1 : Preds) (x2 : Truth) (n : Fin 4000000) (a : Fin 5) :
    val_main_v126 (F := Ideal) x0 x1 x2 (ix3 n a (1 : Fin 2))
      = Iou.overlap (pY1 x0 x1 n a) (gY1 x0 x2 n) (pY2 x0 x1 n a) (gY2 x0 x2 n) := by
  rw [val_main_v126_apply, val_main_call0_v1_apply, val_main_call0_v0_apply, val_main_cst_23_apply, val_main_v125_apply,
    v124_at1, v119_at1]; rfl

/-- The shared x length as a rank-2 array: component 0 of the clipped differences, the unit axis dropped. -/
theorem v128_at (x0 : Cells) (x1 : Preds) (x2 : Truth) (n : Fin 4000000) (a : Fin 5) :
    val_main_v128 (F := Ideal) x0 x1 x2 (ix2 n a)
      = Iou.overlap (pX1 x0 x1 n a) (gX1 x0 x2 n) (pX2 x0 x1 n a) (gX2 x0 x2 n) := by
  rw [val_main_v128_apply, val_main_v127_apply]
  have e : idx_main_v127 (idx_main_v128 (ix2 n a)) = ix3 n a (0 : Fin 2) := by
    funext d; apply Fin.ext
    match d with
    | ⟨0, _⟩ => show (n.val * 5 + a.val) / 5 = n.val; omega
    | ⟨1, _⟩ => show (n.val * 5 + a.val) / 1 % 5 = a.val; omega
    | ⟨2, _⟩ => rfl
  rw [e, v126_at0]

/-- The shared y length as a rank-2 array: component 1 of the clipped differences, the unit axis dropped. -/
theorem v130_at (x0 : Cells) (x1 : Preds) (x2 : Truth) (n : Fin 4000000) (a : Fin 5) :
    val_main_v130 (F := Ideal) x0 x1 x2 (ix2 n a)
      = Iou.overlap (pY1 x0 x1 n a) (gY1 x0 x2 n) (pY2 x0 x1 n a) (gY2 x0 x2 n) := by
  rw [val_main_v130_apply, val_main_v129_apply]
  have e : idx_main_v129 (idx_main_v130 (ix2 n a)) = ix3 n a (1 : Fin 2) := by
    funext d; apply Fin.ext
    match d with
    | ⟨0, _⟩ => show (n.val * 5 + a.val) / 5 = n.val; omega
    | ⟨1, _⟩ => show (n.val * 5 + a.val) / 1 % 5 = a.val; omega
    | ⟨2, _⟩ => rfl
  rw [e, v126_at1]

/-! ## Intersection over union -/

/-- The intersection area: shared x length times shared y length. -/
theorem v131_at (x0 : Cells) (x1 : Preds) (x2 : Truth) (n : Fin 4000000) (a : Fin 5) :
    val_main_v131 (F := Ideal) x0 x1 x2 (ix2 n a)
      = Iou.overlap (pX1 x0 x1 n a) (gX1 x0 x2 n) (pX2 x0 x1 n a) (gX2 x0 x2 n)
        * Iou.overlap (pY1 x0 x1 n a) (gY1 x0 x2 n) (pY2 x0 x1 n a) (gY2 x0 x2 n) := by
  rw [val_main_v131_apply, v128_at, v130_at]; rfl

/-- Entry (n, a) of the program's result: the intersection area over the union area (the two areas added, the
    intersection taken away once). -/
theorem v136_at (x0 : Cells) (x1 : Preds) (x2 : Truth) (n : Fin 4000000) (a : Fin 5) :
    val_main_v136 (F := Ideal) x0 x1 x2 (ix2 n a)
      = Iou.ratio (pX1 x0 x1 n a) (pY1 x0 x1 n a) (pX2 x0 x1 n a) (pY2 x0 x1 n a)
          (gX1 x0 x2 n) (gY1 x0 x2 n) (gX2 x0 x2 n) (gY2 x0 x2 n) := by
  rw [val_main_v136_apply, val_main_v135_apply, val_main_v134_apply, v131_at, v103_at, v133_at]; rfl

/-- **The reference program computes the specification**: its result array is `Iou.G` of its three arguments, entry
    by entry. -/
theorem result_eq (x0 : (⟨S4000000x2, .i32⟩ : BufTy).Contents (Elt Ideal)) (x1 : (⟨S4000000x5x5, .f32⟩ : BufTy).Contents (Elt Ideal))
    (x2 : (⟨S4000000x5, .f32⟩ : BufTy).Contents (Elt Ideal)) :
    Cert.ReferenceIdeal.Read.val_main_v136 (F := Ideal) x0 x1 x2 = Cert.Iou.G x0 x1 x2 := by
  funext i
  obtain ⟨n, a, rfl⟩ : ∃ (n : Fin 4000000) (a : Fin 5), i = ix2 n a := ⟨i 0, i 1, eq_ix2 i⟩
  rw [v136_at]; rfl

end Cert.ReferenceIdeal.RefValue

end
-- ==== Proof.lean ====
/-
  The kernel and the reference compute, for each of 4,000,000 boxes and 5 anchors, the intersection over union
  of a predicted box and the ground-truth box: `Cert.Iou.G` of the three argument arrays.

  The kernel transposes its inputs so that the box index is the last axis, lets each of 125 grid points fill a
  5 x 32000 block one anchor row at a time, and transposes the result back; the reference stacks the corners of
  every box and slices them apart again.  Entry by entry both are `Cert.Iou.entry` of the same ten numbers; the
  one difference in spelling — half the scaled size as a product with 0.5 or as a quotient by 2 — is no difference
  on the extended reals (`Cert.Iou.div_two`).  No finiteness of the inputs is used.
-/
import proofs.«143591_j31336081391713_2_alg».proof.Defs
import proofs.«143591_j31336081391713_2_alg».proof.Proof.Gen.Kernel
import proofs.«143591_j31336081391713_2_alg».proof.Proof.Gen.Kernel.Skeleton
import proofs.«143591_j31336081391713_2_alg».proof.Proof.Gen.Kernel.Launch
import proofs.«143591_j31336081391713_2_alg».proof.Proof.Gen.Kernel.Points
import proofs.«143591_j31336081391713_2_alg».proof.Proof.Gen.Kernel.Frame
import proofs.«143591_j31336081391713_2_alg».proof.Proof.Gen.KernelIdeal
import proofs.«143591_j31336081391713_2_alg».proof.Proof.Gen.KernelIdeal.Skeleton
import proofs.«143591_j31336081391713_2_alg».proof.Proof.Gen.KernelIdeal.Launch
import proofs.«143591_j31336081391713_2_alg».proof.Proof.Gen.KernelIdeal.Points
import proofs.«143591_j31336081391713_2_alg».proof.Proof.Gen.KernelIdeal.Frame
import proofs.«143591_j31336081391713_2_alg».proof.Proof.Gen.ReferenceIdeal
import proofs.«143591_j31336081391713_2_alg».proof.Proof.Gen.ReferenceIdeal.Run
import proofs.«143591_j31336081391713_2_alg».proof.Proof.Gen.ReferenceIdeal.Read
import proofs.«143591_j31336081391713_2_alg».proof.Proof.Gen.Pre_finite_inputs
import proofs.«143591_j31336081391713_2_alg».proof.Proof.Iou
import proofs.«143591_j31336081391713_2_alg».proof.Proof.KernelWhole
import proofs.«143591_j31336081391713_2_alg».proof.Proof.RefEntry
import Idealize.ShloMosaic.Adequacy
import Idealize.ShloMosaic.Init

noncomputable section

namespace Cert.Proof

open Idealize.ShloMosaic Idealize.SL.Sem

/-- The word-level kernel runs and leaves its arguments as they were. -/
theorem frame_kernel [Cert.Kernel.Facts] [Cert.Pre_finite_inputs.Facts] : Cert.frame_Kernel :=
  fun m ρ _ => Cert.Kernel.Gen.frame m ρ

/-- So does the kernel read on the extended reals. -/
theorem frame_kernelIdeal [Cert.KernelIdeal.Facts] [Cert.Pre_finite_inputs.Facts] : Cert.frame_KernelIdeal :=
  fun m ρ _ => Cert.KernelIdeal.Gen.frame m ρ

/-- The reference runs and leaves its arguments as they were: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the result array at `Iou.G` of the
    arguments: the kernel by its blocks, the reference operation by operation. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Iou.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v136_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
